-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)) (v3 : (c : Dev Cert.KernelIdeal.nD) → Buf (Elt Ideal) ((c.tc : Thread Cert.KernelIdeal.nD Cert.KernelIdeal.τ).loc Cert.KernelIdeal.main_v8_2)) (v4 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_v8_2) = v3 c
          ∧ r.2.mem ((c.tc : Thread Cert.KernelIdeal.nD Cert.KernelIdeal.τ).loc Cert.KernelIdeal.main_v8_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S2048x1 .f32) (main_cst_32 : FVec F S_ .f32) : IVec S_ 1 :=
  let main_v85 : FVec F S2048x1 .f32 := broadcastInDim S2048x1 ![] bcast_S_S2048x1 main_cst_32
  let main_v86 : IVec S2048x1 1 := cmpf .olt main_v84 main_v85
  let main_c_33 : IVec S_ 1 := constantI S_ 1 1#1
  let main_v87 : IVec S_ 1 := (fun x v => Host.reduce IntOp.andi x v reducesTo_S2048x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S2048 .f32) (main_arg15 : FVec F S2048 .f32) (main_arg16 : FVec F S2048 .f32) (main_arg17 : FVec F S2048x1 .f32) (main_arg18 : FVec F S1 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048x2048 .f32) (main_arg13 : FVec F S2048 .f32) (main_arg14 : FVec F S2048 .f32) (main_arg15 : FVec F S2048 .f32) (main_arg16 : FVec F S2048 .f32) (main_arg17 : FVec F S2048x1 .f32) (main_arg18 : FVec F S1 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) (main_arg13 : FVec F S2048 .f32) (main_arg14 : FVec F S2048 .f32) (main_arg15 : FVec F S2048 .f32) (main_arg16 : FVec F S2048 .f32) (main_arg17 : FVec F S2048x1 .f32) (main_arg18 : FVec F S1 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_arg17 main_arg18 main_v48 main_v49 main_v50

def fn_part1 {F : FTy → Type} [FloatOps F] (main_arg4 : FVec F S8192x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) (main_arg13 : FVec F S2048 .f32) (main_arg14 : FVec F S2048 .f32) (main_arg15 : FVec F S2048 .f32) (main_arg16 : FVec F S2048 .f32) (main_arg17 : FVec F S2048x1 .f32) (main_arg18 : FVec F S1 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) (main_arg13 : FVec F S2048 .f32) (main_arg14 : FVec F S2048 .f32) (main_arg15 : FVec F S2048 .f32) (main_arg16 : FVec F S2048 .f32) (main_arg17 : FVec F S2048x1 .f32) (main_arg18 : FVec F S1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S256x2048 : Shape := ⟨2, ![256, 2048]⟩
abbrev S256x256 : Shape := ⟨2, ![256, 256]⟩
abbrev S2048x256 : Shape := ⟨2, ![2048, 256]⟩
abbrev S256 : Shape := ⟨1, ![256]⟩
abbrev S1x256 : Shape := ⟨2, ![1, 256]⟩
abbrev S8192x1 : Shape := ⟨2, ![8192, 1]⟩
abbrev S1x1 : Shape := ⟨2, ![1, 1]⟩

abbrev nBuf : Space → Nat
  | .hbm => 35
  | .vmem => 42
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048x1, .f32⟩
  | .hbm, ⟨18, _⟩ => ⟨S1, .f32⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x1, .f32⟩
  | .hbm, ⟨32, _⟩ => ⟨S1x1, .f32⟩
  | .hbm, ⟨33, _⟩ => ⟨S8192x1, .f32⟩
  | .hbm, ⟨34, _⟩ => ⟨S8192x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S256, .f32⟩
  | .local _ .vmem, ⟨27, _⟩ => ⟨S256, .f32⟩
  | .local _ .vmem, ⟨28, _⟩ => ⟨S256, .f32⟩
  | .local _ .vmem, ⟨29, _⟩ => ⟨S256, .f32⟩
  | .local _ .vmem, ⟨30, _⟩ => ⟨S256, .f32⟩
  | .local _ .vmem, ⟨31, _⟩ => ⟨S256, .f32⟩
  | .local _ .vmem, ⟨32, _⟩ => ⟨S256, .f32⟩
  | .local _ .vmem, ⟨33, _⟩ => ⟨S256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev main_v8_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S256x2048_S2048x256_S256x256_1_0_0_1_n_n_wf : DotDims.WF S256x2048 S2048x256 S256x256 [1] [0] [0] [1] [] []
  dot_S8192x2048_S2048x1_S8192x1_1_0_0_1_n_n_wf : DotDims.WF S8192x2048 S2048x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x2048.size a
  hwx0_2 : ∀ i : grid0.Coords, EltTy.bits .f32 = 32 ∨ (Rect.block (s := S8192x2048) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x2048.size a
  hwx0_3 : ∀ i : grid0.Coords, EltTy.bits .f32 = 32 ∨ (Rect.block (s := S8192x2048) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x2048.size a
  hwx0_4 : ∀ i : grid0.Coords, EltTy.bits .f32 = 32 ∨ (Rect.block (s := S8192x2048) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .bf16 = 32 ∨ (Rect.block (s := S2048x2048) S2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S2048x2048.size a
  hwx0_11 : ∀ i : grid0.Coords, EltTy.bits .bf16 = 32 ∨ (Rect.block (s := S2048x2048) S2048x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S2048x2048.size a
  hwx0_12 : ∀ i : grid0.Coords, EltTy.bits .bf16 = 32 ∨ (Rect.block (s := S2048x2048) S2048x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S2048.size a
  hwx0_13 : ∀ i : grid0.Coords, EltTy.bits .f32 = 32 ∨ (Rect.block (s := S2048) S256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S2048.size a
  hwx0_14 : ∀ i : grid0.Coords, EltTy.bits .f32 = 32 ∨ (Rect.block (s := S2048) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S2048.size a
  hwx0_15 : ∀ i : grid0.Coords, EltTy.bits .f32 = 32 ∨ (Rect.block (s := S2048) S256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S2048.size a
  hwx0_16 : ∀ i : grid0.Coords, EltTy.bits .f32 = 32 ∨ (Rect.block (s := S2048) S256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S8192x2048.size a
  hwx0_17 : ∀ i : grid0.Coords, EltTy.bits .f32 = 32 ∨ (Rect.block (s := S8192x2048) S256x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S8192x2048.size a
  hwx0_18 : ∀ i : grid0.Coords, EltTy.bits .f32 = 32 ∨ (Rect.block (s := S8192x2048) S256x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S8192x2048.size a
  hwx0_19 : ∀ i : grid0.Coords, EltTy.bits .f32 = 32 ∨ (Rect.block (s := S8192x2048) S256x256.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S8192x2048.size a
  hwx0_20 : ∀ i : grid0.Coords, EltTy.bits .f32 = 32 ∨ (Rect.block (s := S8192x2048) S256x256.size (cc0_transform_20 i) (hinb0_20 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S8192x2048_S2048x1_S8192x1_1_0_0_1_n_n : DotDims S8192x2048 S2048x1 S8192x1 where
  lhsContracting := [1]
  rhsContracting := [0]
  lhsNonContracting := [0]
  rhsNonContracting := [1]
  lhsBatch := []
  rhsBatch := []
  wf := dot_S8192x2048_S2048x1_S8192x1_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6) S2048x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7) S2048x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v8_0) S256x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v8_1) S256x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v8_2) S256x256.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v8_3) S256x256.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩
abbrev S8192x1 : Shape := ⟨2, ![8192, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048x1, .f32⟩
  | .hbm, ⟨18, _⟩ => ⟨S1, .f32⟩
  | .hbm, ⟨19, _⟩ => ⟨S2048x8192, .f32⟩
  | .hbm, ⟨20, _⟩ => ⟨S2048x8192, .f32⟩
  | .hbm, ⟨21, _⟩ => ⟨S8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x1, .f32⟩
  | .hbm, ⟨65, _⟩ => ⟨S1x1, .f32⟩
  | .hbm, ⟨66, _⟩ => ⟨S8192x1, .f32⟩
  | .hbm, ⟨67, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x2048_S2048x8192_S8192x8192_1_0_0_1_n_n_wf : DotDims.WF S8192x2048 S2048x8192 S8192x8192 [1] [0] [0] [1] [] []
  dot_S8192x2048_S2048x1_S8192x1_1_0_0_1_n_n_wf : DotDims.WF S8192x2048 S2048x1 S8192x1 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x2048_S2048x1_S8192x1_1_0_0_1_n_n : DotDims S8192x2048 S2048x1 S8192x1 where
  lhsContracting := [1]
  rhsContracting := [0]
  lhsNonContracting := [0]
  rhsNonContracting := [1]
  lhsBatch := []
  rhsBatch := []
  wf := dot_S8192x2048_S2048x1_S8192x1_1_0_0_1_n_n_wf

class Facts : Prop extends Facts₀ where

variable [Facts]
-- ==== Proof.LogSigmoid.lean ====
/-
  The one law that joins the two programs.  The logarithm of the logistic function can be written as the logarithm of the
  quotient, `log (1 / (1 + e^{-f}))`, or in the overflow-safe way, `-(max(-f, 0) + log(1 + e^{-|f|}))` (minus the
  softplus of `-f`).  On the extended reals, with the conventions `e^{-∞} = 0`, `e^{+∞} = +∞`, `1 / +∞ = 0`,
  `log 0 = -∞`, the two are ONE function of `f`: at every real by `log (x⁻¹) = -log x` and
  `1 + e^{-r} = e^{-r} (1 + e^{r})`, and at the two infinities by evaluating both sides (`0` at `+∞`, `-∞` at `-∞`).
  Nothing here needs `f` to be finite.
-/
import Idealize.ShloMosaic.PureOps.Ideal
import Idealize.ShloMosaic.PureOps.Ideal.Laws

noncomputable section

namespace Cert.SLstm

open Idealize.ShloMosaic

/-- `log σ(f)` as the logarithm of the logistic quotient `1 / (1 + e^{-f})`. -/
def logSigmoid (f : EReal) : EReal := Ideal.log (Ideal.logistic f)

/-- Minus the softplus of `-f`, spelled the overflow-safe way, every zero of the spelling kept:
    `0 - (max (0 - f) 0 + log (1 + exp (0 - |(0 - f) - 0|)))`, the absolute value `|d|` being `max d (-d)`. -/
def negSoftplusNeg (f : EReal) : EReal :=
  0 - (max (0 - f) 0 + Ideal.log1p (Ideal.exp (0 - max ((0 - f) - 0) (-((0 - f) - 0)))))

/-- The law on the reals: `-(max(-r, 0) + log(1 + e^{-max(-r, r)})) = log ((1 + e^{-r})⁻¹)`. -/
theorem real_law (r : ℝ) :
    -(max (-r) 0 + Real.log (1 + Real.exp (-(max (-r) r)))) = Real.log ((1 + Real.exp (-r))⁻¹) := by
  rw [Real.log_inv]
  rcases le_total 0 r with h | h
  · rw [max_eq_right (by linarith : -r ≤ 0), max_eq_right (by linarith : -r ≤ r)]; ring
  · rw [max_eq_left (by linarith : 0 ≤ -r), max_eq_left (by linarith : r ≤ -r), neg_neg]
    have e : 1 + Real.exp (-r) = Real.exp (-r) * (1 + Real.exp r) := by
      have h1 : Real.exp (-r) * Real.exp r = 1 := by rw [← Real.exp_add, neg_add_cancel, Real.exp_zero]
      linear_combination (-1 : ℝ) * h1
    rw [e, Real.log_mul (Real.exp_pos _).ne' (by positivity), Real.log_exp]

/-- The coercion of the reals into the extended reals is monotone, so it commutes with `max`. -/
theorem coe_max (a b : ℝ) : ((max a b : ℝ) : EReal) = max (a : EReal) (b : EReal) :=
  EReal.coe_strictMono.monotone.map_max

theorem log_one : Ideal.log 1 = 0 := by
  rw [← EReal.coe_one, Ideal.log_coe, if_neg (by norm_num), Real.log_one, EReal.coe_zero]

theorem log_zero : Ideal.log 0 = ⊥ := by
  rw [← EReal.coe_zero, Ideal.log_coe, if_pos le_rfl]

/-- The two spellings of `log σ` are one function on the extended reals. -/
theorem negSoftplusNeg_eq_logSigmoid (f : EReal) : negSoftplusNeg f = logSigmoid f := by
  induction f using EReal.rec with
  | bot =>
    -- at -∞: 0 - (+∞ + log (1 + e^{-∞})) = -∞, and log σ(-∞) = log 0 = -∞
    unfold negSoftplusNeg logSigmoid Ideal.log1p
    simp only [zero_sub, sub_zero, EReal.neg_bot, EReal.neg_top, max_bot_right, max_top_left, Ideal.exp_bot, add_zero,
      log_one, Ideal.logistic_bot, log_zero]
  | coe r =>
    have hpos : ¬ (1 + Real.exp (-(max (-r) r)) ≤ 0) := not_le.2 (by positivity)
    have hpos' : ¬ ((1 + Real.exp (-r))⁻¹ ≤ 0) := not_le.2 (by positivity)
    have L : negSoftplusNeg (r : EReal) = ((-(max (-r) 0 + Real.log (1 + Real.exp (-(max (-r) r)))) : ℝ) : EReal) := by
      unfold negSoftplusNeg Ideal.log1p
      have a1 : (0 : EReal) - (r : EReal) = ((-r : ℝ) : EReal) := by rw [zero_sub, EReal.coe_neg]
      rw [a1, sub_zero, ← EReal.coe_neg, neg_neg, ← EReal.coe_zero, ← coe_max, ← coe_max, ← EReal.coe_sub, zero_sub,
        Ideal.exp_coe, ← EReal.coe_one, ← EReal.coe_add, Ideal.log_coe, if_neg hpos, ← EReal.coe_add, ← EReal.coe_sub, zero_sub]
    have R : logSigmoid (r : EReal) = ((Real.log ((1 + Real.exp (-r))⁻¹) : ℝ) : EReal) := by
      unfold logSigmoid
      rw [Ideal.logistic_coe, Ideal.log_coe, if_neg hpos']
    rw [L, R, real_law]
  | top =>
    -- at +∞: 0 - (0 + log (1 + e^{-∞})) = 0, and log σ(+∞) = log 1 = 0
    unfold negSoftplusNeg logSigmoid Ideal.log1p
    simp only [zero_sub, sub_zero, EReal.neg_bot, EReal.neg_top, max_bot_left, Ideal.exp_bot, add_zero, log_one,
      Ideal.logistic_top, neg_zero]

end Cert.SLstm

end
-- ==== Proof.Cell.lean ====
/-
  The specification: one sLSTM step, index by index, as functions of the argument arrays on the extended reals.
  For a row `a` of the batch and a hidden column `j` each gate's pre-activation is
      gate a j = (∑ₖ x[a,k] · w[k,j] + ∑ₖ h[a,k] · r[k,j]) + b[j],
  the input, forget, output and cell-input gates differing only in which weights and bias they use.  With
  `ℓ = log σ(f̃)` (LogSigmoid.lean) the stabilizer is `m' = max (ℓ + m) ĩ`, the two exponential gates are
  `i' = exp (ĩ - m')` and `f' = exp (ℓ + m - m')`, and
      c' = f' · c + i' · tanh z̃,   n' = f' · n + i',   h' = σ(õ) · (c' / n').
  The scalar result is the projection `∑ⱼ h'[a,j] · fc_w[j,0] + fc_b[0]`, which both programs compute with the same
  operations from their `h'`; it is kept as one function of `h'` (`project`, Tail.lean) and never opened.
-/
import proofs.«103875_j21062519619836_2_alg».proof.Proof.LogSigmoid
import Idealize.ShloMosaic.Lib.ValueIdx

noncomputable section

namespace Cert.SLstm

open Idealize.ShloMosaic Idealize.ShloMosaic.ValueIdx

/-- A gate's pre-activation at row `a`, column `j`: the two contractions over the 2048 input and hidden features, then
    the bias.  `B` rows, `H` columns: the whole arrays have `B = 8192`, `H = 2048`, a tile `B = H = 256`. -/
def gate {B H : Nat} (x h : (⟨2, ![B, 2048]⟩ : Shape).Idx → EReal) (w r : (⟨2, ![2048, H]⟩ : Shape).Idx → EReal)
    (b : (⟨1, ![H]⟩ : Shape).Idx → EReal) (a : Fin B) (j : Fin H) : EReal :=
  (∑ k : Fin 2048, x (ix2 a k) * w (ix2 k j) + ∑ k : Fin 2048, h (ix2 a k) * r (ix2 k j)) + b (ix1 j)

/-- The new stabilizer `m' = max (log σ(f̃) + m) ĩ`. -/
def mNew (i f m : EReal) : EReal := max (logSigmoid f + m) i

/-- The stabilized input gate `i' = exp (ĩ - m')`. -/
def iGate (i f m : EReal) : EReal := Ideal.exp (i - mNew i f m)

/-- The stabilized forget gate `f' = exp (log σ(f̃) + m - m')`. -/
def fGate (i f m : EReal) : EReal := Ideal.exp (logSigmoid f + m - mNew i f m)

/-- The new cell state `c' = f' · c + i' · tanh z̃`. -/
def cNew (i f z c m : EReal) : EReal := fGate i f m * c + iGate i f m * Ideal.tanh z

/-- The new normalizer `n' = f' · n + i'`. -/
def nNew (i f n m : EReal) : EReal := fGate i f m * n + iGate i f m

/-- The new hidden state `h' = σ(õ) · (c' / n')`. -/
def hNew (i f o z c n m : EReal) : EReal := Ideal.logistic o * Ideal.div (cNew i f z c m) (nNew i f n m)

/-- A gate's pre-activation depends only on the summands it reads: if a tile's operands are the whole arrays' entries on
    the tile's row and column, the tile's gate is the whole arrays' gate there. -/
theorem gate_congr {B H B' H' : Nat}
    (x h : (⟨2, ![B, 2048]⟩ : Shape).Idx → EReal) (w r : (⟨2, ![2048, H]⟩ : Shape).Idx → EReal) (b : (⟨1, ![H]⟩ : Shape).Idx → EReal)
    (x' h' : (⟨2, ![B', 2048]⟩ : Shape).Idx → EReal) (w' r' : (⟨2, ![2048, H']⟩ : Shape).Idx → EReal) (b' : (⟨1, ![H']⟩ : Shape).Idx → EReal)
    (a : Fin B) (j : Fin H) (a' : Fin B') (j' : Fin H')
    (hx : ∀ k : Fin 2048, x (ix2 a k) = x' (ix2 a' k)) (hh : ∀ k : Fin 2048, h (ix2 a k) = h' (ix2 a' k))
    (hw : ∀ k : Fin 2048, w (ix2 k j) = w' (ix2 k j')) (hr : ∀ k : Fin 2048, r (ix2 k j) = r' (ix2 k j'))
    (hb : b (ix1 j) = b' (ix1 j')) :
    gate x h w r b a j = gate x' h' w' r' b' a' j' := by
  unfold gate
  rw [hb]
  simp only [hx, hh, hw, hr]

/-! ## The whole arrays -/

/-- An activation-shaped array: 8192 rows of the batch, 2048 hidden columns. -/
abbrev Act : Type := (⟨2, ![8192, 2048]⟩ : Shape).Idx → EReal
/-- A weight matrix: 2048 features by 2048 hidden columns. -/
abbrev Wt : Type := (⟨2, ![2048, 2048]⟩ : Shape).Idx → EReal
/-- A bias: one number per hidden column. -/
abbrev Bias : Type := (⟨1, ![2048]⟩ : Shape).Idx → EReal

/-- The arguments of one step: the input `x`, the previous hidden state `h`, cell state `c`, normalizer `n` and
    stabilizer `m`; the input weights, recurrent weights and biases of the four gates. -/
structure Args where
  x : Act
  h : Act
  c : Act
  n : Act
  m : Act
  wi : Wt
  wf : Wt
  wo : Wt
  wz : Wt
  ri : Wt
  rf : Wt
  ro : Wt
  rz : Wt
  bi : Bias
  bf : Bias
  bo : Bias
  bz : Bias

namespace Args

variable (A : Args)

def preI (a : Fin 8192) (j : Fin 2048) : EReal := gate A.x A.h A.wi A.ri A.bi a j
def preF (a : Fin 8192) (j : Fin 2048) : EReal := gate A.x A.h A.wf A.rf A.bf a j
def preO (a : Fin 8192) (j : Fin 2048) : EReal := gate A.x A.h A.wo A.ro A.bo a j
def preZ (a : Fin 8192) (j : Fin 2048) : EReal := gate A.x A.h A.wz A.rz A.bz a j

/-- The new stabilizer, as an array. -/
def mOut : Act := fun i => mNew (A.preI (i 0) (i 1)) (A.preF (i 0) (i 1)) (A.m i)
/-- The new cell state, as an array. -/
def cOut : Act := fun i => cNew (A.preI (i 0) (i 1)) (A.preF (i 0) (i 1)) (A.preZ (i 0) (i 1)) (A.c i) (A.m i)
/-- The new normalizer, as an array. -/
def nOut : Act := fun i => nNew (A.preI (i 0) (i 1)) (A.preF (i 0) (i 1)) (A.n i) (A.m i)
/-- The new hidden state, as an array. -/
def hOut : Act :=
  fun i => hNew (A.preI (i 0) (i 1)) (A.preF (i 0) (i 1)) (A.preO (i 0) (i 1)) (A.preZ (i 0) (i 1)) (A.c i) (A.n i) (A.m i)

end Args

end Cert.SLstm

end
-- ==== Proof.KernelReads.lean ====
/-
  The tiles as parts of the arrays.  The grid has 8 × 32 points; at point `t` the output tile has block row `R` (one of
  32) and block column `C` (one of 8).  Decided once over the 256 points: the activations' tiles `x`, `h` sit at block
  `(R, 0)` (256 rows, all 2048 features), the tiles of `c`, `n`, `m` and of the four results at `(R, C)`, every weight
  tile at `(0, C)` (all 2048 features, 256 columns) and every bias piece at `C`.  A tile's entry sits in its array at block
  index × block size + the coordinate inside the tile, so a tile's row `p` is the array's row `R·256 + p` and its column
  `q` the array's column `C·256 + q`; hence each gate computed on the tiles at `(p, q)` is the whole arrays' gate at
  `(R·256 + p, C·256 + q)`.
-/
import proofs.«103875_j21062519619836_2_alg».proof.Proof.Gen.KernelIdeal.Frame
import proofs.«103875_j21062519619836_2_alg».proof.Proof.Cell
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem Idealize.ShloMosaic.ValueIdx Cert.SLstm
open Idealize.ShloMosaic.Pipeline (Dat)

variable (m : (ℓ : Loc nD τ sig) → Buf (Elt Ideal) ℓ)

/-! ## The printed index maps, decided over the grid -/

/-- The output tile's block indices stay inside the 32 × 8 grid of tiles. -/
theorem idx_out : ∀ t : Fin cfg0.N, win0_17.index t (0 : Fin 2) ≤ 31 ∧ win0_17.index t (1 : Fin 2) ≤ 7 :=
  (by decide +kernel : ∀ t : Fin grid0.N, _)

theorem idx_0 : ∀ t : Fin cfg0.N, win0_0.index t (0 : Fin 2) = win0_17.index t (0 : Fin 2) ∧ win0_0.index t (1 : Fin 2) = 0 :=
  (by decide +kernel : ∀ t : Fin grid0.N, _)

theorem idx_1 : ∀ t : Fin cfg0.N, win0_1.index t (0 : Fin 2) = win0_17.index t (0 : Fin 2) ∧ win0_1.index t (1 : Fin 2) = 0 :=
  (by decide +kernel : ∀ t : Fin grid0.N, _)

theorem idx_2 : ∀ t : Fin cfg0.N, win0_2.index t (0 : Fin 2) = win0_17.index t (0 : Fin 2) ∧ win0_2.index t (1 : Fin 2) = win0_17.index t (1 : Fin 2) :=
  (by decide +kernel : ∀ t : Fin grid0.N, _)

theorem idx_3 : ∀ t : Fin cfg0.N, win0_3.index t (0 : Fin 2) = win0_17.index t (0 : Fin 2) ∧ win0_3.index t (1 : Fin 2) = win0_17.index t (1 : Fin 2) :=
  (by decide +kernel : ∀ t : Fin grid0.N, _)

theorem idx_4 : ∀ t : Fin cfg0.N, win0_4.index t (0 : Fin 2) = win0_17.index t (0 : Fin 2) ∧ win0_4.index t (1 : Fin 2) = win0_17.index t (1 : Fin 2) :=
  (by decide +kernel : ∀ t : Fin grid0.N, _)

theorem idx_18 : ∀ t : Fin cfg0.N, win0_18.index t (0 : Fin 2) = win0_17.index t (0 : Fin 2) ∧ win0_18.index t (1 : Fin 2) = win0_17.index t (1 : Fin 2) :=
  (by decide +kernel : ∀ t : Fin grid0.N, _)

theorem idx_19 : ∀ t : Fin cfg0.N, win0_19.index t (0 : Fin 2) = win0_17.index t (0 : Fin 2) ∧ win0_19.index t (1 : Fin 2) = win0_17.index t (1 : Fin 2) :=
  (by decide +kernel : ∀ t : Fin grid0.N, _)

theorem idx_20 : ∀ t : Fin cfg0.N, win0_20.index t (0 : Fin 2) = win0_17.index t (0 : Fin 2) ∧ win0_20.index t (1 : Fin 2) = win0_17.index t (1 : Fin 2) :=
  (by decide +kernel : ∀ t : Fin grid0.N, _)

theorem idx_5 : ∀ t : Fin cfg0.N, win0_5.index t (0 : Fin 2) = 0 ∧ win0_5.index t (1 : Fin 2) = win0_17.index t (1 : Fin 2) :=
  (by decide +kernel : ∀ t : Fin grid0.N, _)

theorem idx_6 : ∀ t : Fin cfg0.N, win0_6.index t (0 : Fin 2) = 0 ∧ win0_6.index t (1 : Fin 2) = win0_17.index t (1 : Fin 2) :=
  (by decide +kernel : ∀ t : Fin grid0.N, _)

theorem idx_7 : ∀ t : Fin cfg0.N, win0_7.index t (0 : Fin 2) = 0 ∧ win0_7.index t (1 : Fin 2) = win0_17.index t (1 : Fin 2) :=
  (by decide +kernel : ∀ t : Fin grid0.N, _)

theorem idx_8 : ∀ t : Fin cfg0.N, win0_8.index t (0 : Fin 2) = 0 ∧ win0_8.index t (1 : Fin 2) = win0_17.index t (1 : Fin 2) :=
  (by decide +kernel : ∀ t : Fin grid0.N, _)

theorem idx_9 : ∀ t : Fin cfg0.N, win0_9.index t (0 : Fin 2) = 0 ∧ win0_9.index t (1 : Fin 2) = win0_17.index t (1 : Fin 2) :=
  (by decide +kernel : ∀ t : Fin grid0.N, _)

theorem idx_10 : ∀ t : Fin cfg0.N, win0_10.index t (0 : Fin 2) = 0 ∧ win0_10.index t (1 : Fin 2) = win0_17.index t (1 : Fin 2) :=
  (by decide +kernel : ∀ t : Fin grid0.N, _)

theorem idx_11 : ∀ t : Fin cfg0.N, win0_11.index t (0 : Fin 2) = 0 ∧ win0_11.index t (1 : Fin 2) = win0_17.index t (1 : Fin 2) :=
  (by decide +kernel : ∀ t : Fin grid0.N, _)

theorem idx_12 : ∀ t : Fin cfg0.N, win0_12.index t (0 : Fin 2) = 0 ∧ win0_12.index t (1 : Fin 2) = win0_17.index t (1 : Fin 2) :=
  (by decide +kernel : ∀ t : Fin grid0.N, _)

theorem idx_13 : ∀ t : Fin cfg0.N, win0_13.index t (0 : Fin 1) = win0_17.index t (1 : Fin 2) :=
  (by decide +kernel : ∀ t : Fin grid0.N, _)

theorem idx_14 : ∀ t : Fin cfg0.N, win0_14.index t (0 : Fin 1) = win0_17.index t (1 : Fin 2) :=
  (by decide +kernel : ∀ t : Fin grid0.N, _)

theorem idx_15 : ∀ t : Fin cfg0.N, win0_15.index t (0 : Fin 1) = win0_17.index t (1 : Fin 2) :=
  (by decide +kernel : ∀ t : Fin grid0.N, _)

theorem idx_16 : ∀ t : Fin cfg0.N, win0_16.index t (0 : Fin 1) = win0_17.index t (1 : Fin 2) :=
  (by decide +kernel : ∀ t : Fin grid0.N, _)

/-! ## A tile's entries in its array -/

/-- Row `p` of window 0's tile is row `R·256 + p` of its array, all 2048 features of it. -/
theorem read_0 (c : Dev nD) (t : Fin cfg0.N) (p : Fin 256) (k : Fin 2048) (a : Fin 8192)
    (ha : a.val = win0_17.index t (0 : Fin 2) * 256 + p.val) :
    iblk m c 0 t (ix2 p k) = V m c main_arg0 (ix2 a k) := by
  show V m c main_arg0 (((cfg0.win 0).blk t).view.emb (ix2 p k)) = V m c main_arg0 (ix2 a k)
  refine congrArg (V m c main_arg0) (funext fun d => Fin.ext ?_)
  obtain ⟨e0, e1⟩ := idx_0 t
  match d with
  | ⟨0, _⟩ => show win0_0.index t (0 : Fin 2) * 256 + 1 * p.val = a.val; omega
  | ⟨1, _⟩ => show win0_0.index t (1 : Fin 2) * 2048 + 1 * k.val = k.val; omega

/-- Row `p` of window 1's tile is row `R·256 + p` of its array, all 2048 features of it. -/
theorem read_1 (c : Dev nD) (t : Fin cfg0.N) (p : Fin 256) (k : Fin 2048) (a : Fin 8192)
    (ha : a.val = win0_17.index t (0 : Fin 2) * 256 + p.val) :
    iblk m c 1 t (ix2 p k) = V m c main_arg1 (ix2 a k) := by
  show V m c main_arg1 (((cfg0.win 1).blk t).view.emb (ix2 p k)) = V m c main_arg1 (ix2 a k)
  refine congrArg (V m c main_arg1) (funext fun d => Fin.ext ?_)
  obtain ⟨e0, e1⟩ := idx_1 t
  match d with
  | ⟨0, _⟩ => show win0_1.index t (0 : Fin 2) * 256 + 1 * p.val = a.val; omega
  | ⟨1, _⟩ => show win0_1.index t (1 : Fin 2) * 2048 + 1 * k.val = k.val; omega

/-- Entry `(p, q)` of window 2's tile is entry `(R·256 + p, C·256 + q)` of its array. -/
theorem read_2 (c : Dev nD) (t : Fin cfg0.N) (p q : Fin 256) (a : Fin 8192) (jj : Fin 2048)
    (ha : a.val = win0_17.index t (0 : Fin 2) * 256 + p.val) (hj : jj.val = win0_17.index t (1 : Fin 2) * 256 + q.val) :
    iblk m c 2 t (ix2 p q) = V m c main_arg2 (ix2 a jj) := by
  show V m c main_arg2 (((cfg0.win 2).blk t).view.emb (ix2 p q)) = V m c main_arg2 (ix2 a jj)
  refine congrArg (V m c main_arg2) (funext fun d => Fin.ext ?_)
  obtain ⟨e0, e1⟩ := idx_2 t
  match d with
  | ⟨0, _⟩ => show win0_2.index t (0 : Fin 2) * 256 + 1 * p.val = a.val; omega
  | ⟨1, _⟩ => show win0_2.index t (1 : Fin 2) * 256 + 1 * q.val = jj.val; omega

/-- Entry `(p, q)` of window 3's tile is entry `(R·256 + p, C·256 + q)` of its array. -/
theorem read_3 (c : Dev nD) (t : Fin cfg0.N) (p q : Fin 256) (a : Fin 8192) (jj : Fin 2048)
    (ha : a.val = win0_17.index t (0 : Fin 2) * 256 + p.val) (hj : jj.val = win0_17.index t (1 : Fin 2) * 256 + q.val) :
    iblk m c 3 t (ix2 p q) = V m c main_arg3 (ix2 a jj) := by
  show V m c main_arg3 (((cfg0.win 3).blk t).view.emb (ix2 p q)) = V m c main_arg3 (ix2 a jj)
  refine congrArg (V m c main_arg3) (funext fun d => Fin.ext ?_)
  obtain ⟨e0, e1⟩ := idx_3 t
  match d with
  | ⟨0, _⟩ => show win0_3.index t (0 : Fin 2) * 256 + 1 * p.val = a.val; omega
  | ⟨1, _⟩ => show win0_3.index t (1 : Fin 2) * 256 + 1 * q.val = jj.val; omega

/-- Entry `(p, q)` of window 4's tile is entry `(R·256 + p, C·256 + q)` of its array. -/
theorem read_4 (c : Dev nD) (t : Fin cfg0.N) (p q : Fin 256) (a : Fin 8192) (jj : Fin 2048)
    (ha : a.val = win0_17.index t (0 : Fin 2) * 256 + p.val) (hj : jj.val = win0_17.index t (1 : Fin 2) * 256 + q.val) :
    iblk m c 4 t (ix2 p q) = V m c main_arg4 (ix2 a jj) := by
  show V m c main_arg4 (((cfg0.win 4).blk t).view.emb (ix2 p q)) = V m c main_arg4 (ix2 a jj)
  refine congrArg (V m c main_arg4) (funext fun d => Fin.ext ?_)
  obtain ⟨e0, e1⟩ := idx_4 t
  match d with
  | ⟨0, _⟩ => show win0_4.index t (0 : Fin 2) * 256 + 1 * p.val = a.val; omega
  | ⟨1, _⟩ => show win0_4.index t (1 : Fin 2) * 256 + 1 * q.val = jj.val; omega

/-- Column `q` of window 5's tile is column `C·256 + q` of its matrix, all 2048 features of it. -/
theorem read_5 (c : Dev nD) (t : Fin cfg0.N) (k : Fin 2048) (q : Fin 256) (jj : Fin 2048)
    (hj : jj.val = win0_17.index t (1 : Fin 2) * 256 + q.val) :
    iblk m c 5 t (ix2 k q) = V m c main_v0 (ix2 k jj) := by
  show V m c main_v0 (((cfg0.win 5).blk t).view.emb (ix2 k q)) = V m c main_v0 (ix2 k jj)
  refine congrArg (V m c main_v0) (funext fun d => Fin.ext ?_)
  obtain ⟨e0, e1⟩ := idx_5 t
  match d with
  | ⟨0, _⟩ => show win0_5.index t (0 : Fin 2) * 2048 + 1 * k.val = k.val; omega
  | ⟨1, _⟩ => show win0_5.index t (1 : Fin 2) * 256 + 1 * q.val = jj.val; omega

/-- Column `q` of window 6's tile is column `C·256 + q` of its matrix, all 2048 features of it. -/
theorem read_6 (c : Dev nD) (t : Fin cfg0.N) (k : Fin 2048) (q : Fin 256) (jj : Fin 2048)
    (hj : jj.val = win0_17.index t (1 : Fin 2) * 256 + q.val) :
    iblk m c 6 t (ix2 k q) = V m c main_v1 (ix2 k jj) := by
  show V m c main_v1 (((cfg0.win 6).blk t).view.emb (ix2 k q)) = V m c main_v1 (ix2 k jj)
  refine congrArg (V m c main_v1) (funext fun d => Fin.ext ?_)
  obtain ⟨e0, e1⟩ := idx_6 t
  match d with
  | ⟨0, _⟩ => show win0_6.index t (0 : Fin 2) * 2048 + 1 * k.val = k.val; omega
  | ⟨1, _⟩ => show win0_6.index t (1 : Fin 2) * 256 + 1 * q.val = jj.val; omega

/-- Column `q` of window 7's tile is column `C·256 + q` of its matrix, all 2048 features of it. -/
theorem read_7 (c : Dev nD) (t : Fin cfg0.N) (k : Fin 2048) (q : Fin 256) (jj : Fin 2048)
    (hj : jj.val = win0_17.index t (1 : Fin 2) * 256 + q.val) :
    iblk m c 7 t (ix2 k q) = V m c main_v2 (ix2 k jj) := by
  show V m c main_v2 (((cfg0.win 7).blk t).view.emb (ix2 k q)) = V m c main_v2 (ix2 k jj)
  refine congrArg (V m c main_v2) (funext fun d => Fin.ext ?_)
  obtain ⟨e0, e1⟩ := idx_7 t
  match d with
  | ⟨0, _⟩ => show win0_7.index t (0 : Fin 2) * 2048 + 1 * k.val = k.val; omega
  | ⟨1, _⟩ => show win0_7.index t (1 : Fin 2) * 256 + 1 * q.val = jj.val; omega

/-- Column `q` of window 8's tile is column `C·256 + q` of its matrix, all 2048 features of it. -/
theorem read_8 (c : Dev nD) (t : Fin cfg0.N) (k : Fin 2048) (q : Fin 256) (jj : Fin 2048)
    (hj : jj.val = win0_17.index t (1 : Fin 2) * 256 + q.val) :
    iblk m c 8 t (ix2 k q) = V m c main_v3 (ix2 k jj) := by
  show V m c main_v3 (((cfg0.win 8).blk t).view.emb (ix2 k q)) = V m c main_v3 (ix2 k jj)
  refine congrArg (V m c main_v3) (funext fun d => Fin.ext ?_)
  obtain ⟨e0, e1⟩ := idx_8 t
  match d with
  | ⟨0, _⟩ => show win0_8.index t (0 : Fin 2) * 2048 + 1 * k.val = k.val; omega
  | ⟨1, _⟩ => show win0_8.index t (1 : Fin 2) * 256 + 1 * q.val = jj.val; omega

/-- Column `q` of window 9's tile is column `C·256 + q` of its matrix, all 2048 features of it. -/
theorem read_9 (c : Dev nD) (t : Fin cfg0.N) (k : Fin 2048) (q : Fin 256) (jj : Fin 2048)
    (hj : jj.val = win0_17.index t (1 : Fin 2) * 256 + q.val) :
    iblk m c 9 t (ix2 k q) = V m c main_v4 (ix2 k jj) := by
  show V m c main_v4 (((cfg0.win 9).blk t).view.emb (ix2 k q)) = V m c main_v4 (ix2 k jj)
  refine congrArg (V m c main_v4) (funext fun d => Fin.ext ?_)
  obtain ⟨e0, e1⟩ := idx_9 t
  match d with
  | ⟨0, _⟩ => show win0_9.index t (0 : Fin 2) * 2048 + 1 * k.val = k.val; omega
  | ⟨1, _⟩ => show win0_9.index t (1 : Fin 2) * 256 + 1 * q.val = jj.val; omega

/-- Column `q` of window 10's tile is column `C·256 + q` of its matrix, all 2048 features of it. -/
theorem read_10 (c : Dev nD) (t : Fin cfg0.N) (k : Fin 2048) (q : Fin 256) (jj : Fin 2048)
    (hj : jj.val = win0_17.index t (1 : Fin 2) * 256 + q.val) :
    iblk m c 10 t (ix2 k q) = V m c main_v5 (ix2 k jj) := by
  show V m c main_v5 (((cfg0.win 10).blk t).view.emb (ix2 k q)) = V m c main_v5 (ix2 k jj)
  refine congrArg (V m c main_v5) (funext fun d => Fin.ext ?_)
  obtain ⟨e0, e1⟩ := idx_10 t
  match d with
  | ⟨0, _⟩ => show win0_10.index t (0 : Fin 2) * 2048 + 1 * k.val = k.val; omega
  | ⟨1, _⟩ => show win0_10.index t (1 : Fin 2) * 256 + 1 * q.val = jj.val; omega

/-- Column `q` of window 11's tile is column `C·256 + q` of its matrix, all 2048 features of it. -/
theorem read_11 (c : Dev nD) (t : Fin cfg0.N) (k : Fin 2048) (q : Fin 256) (jj : Fin 2048)
    (hj : jj.val = win0_17.index t (1 : Fin 2) * 256 + q.val) :
    iblk m c 11 t (ix2 k q) = V m c main_v6 (ix2 k jj) := by
  show V m c main_v6 (((cfg0.win 11).blk t).view.emb (ix2 k q)) = V m c main_v6 (ix2 k jj)
  refine congrArg (V m c main_v6) (funext fun d => Fin.ext ?_)
  obtain ⟨e0, e1⟩ := idx_11 t
  match d with
  | ⟨0, _⟩ => show win0_11.index t (0 : Fin 2) * 2048 + 1 * k.val = k.val; omega
  | ⟨1, _⟩ => show win0_11.index t (1 : Fin 2) * 256 + 1 * q.val = jj.val; omega

/-- Column `q` of window 12's tile is column `C·256 + q` of its matrix, all 2048 features of it. -/
theorem read_12 (c : Dev nD) (t : Fin cfg0.N) (k : Fin 2048) (q : Fin 256) (jj : Fin 2048)
    (hj : jj.val = win0_17.index t (1 : Fin 2) * 256 + q.val) :
    iblk m c 12 t (ix2 k q) = V m c main_v7 (ix2 k jj) := by
  show V m c main_v7 (((cfg0.win 12).blk t).view.emb (ix2 k q)) = V m c main_v7 (ix2 k jj)
  refine congrArg (V m c main_v7) (funext fun d => Fin.ext ?_)
  obtain ⟨e0, e1⟩ := idx_12 t
  match d with
  | ⟨0, _⟩ => show win0_12.index t (0 : Fin 2) * 2048 + 1 * k.val = k.val; omega
  | ⟨1, _⟩ => show win0_12.index t (1 : Fin 2) * 256 + 1 * q.val = jj.val; omega

/-- Entry `q` of window 13's piece of the bias is entry `C·256 + q` of the bias. -/
theorem read_13 (c : Dev nD) (t : Fin cfg0.N) (q : Fin 256) (jj : Fin 2048)
    (hj : jj.val = win0_17.index t (1 : Fin 2) * 256 + q.val) :
    iblk m c 13 t (ix1 q) = V m c main_arg13 (ix1 jj) := by
  show V m c main_arg13 (((cfg0.win 13).blk t).view.emb (ix1 q)) = V m c main_arg13 (ix1 jj)
  refine congrArg (V m c main_arg13) (funext fun d => Fin.ext ?_)
  have e0 := idx_13 t
  match d with
  | ⟨0, _⟩ => show win0_13.index t (0 : Fin 1) * 256 + 1 * q.val = jj.val; omega

/-- Entry `q` of window 14's piece of the bias is entry `C·256 + q` of the bias. -/
theorem read_14 (c : Dev nD) (t : Fin cfg0.N) (q : Fin 256) (jj : Fin 2048)
    (hj : jj.val = win0_17.index t (1 : Fin 2) * 256 + q.val) :
    iblk m c 14 t (ix1 q) = V m c main_arg14 (ix1 jj) := by
  show V m c main_arg14 (((cfg0.win 14).blk t).view.emb (ix1 q)) = V m c main_arg14 (ix1 jj)
  refine congrArg (V m c main_arg14) (funext fun d => Fin.ext ?_)
  have e0 := idx_14 t
  match d with
  | ⟨0, _⟩ => show win0_14.index t (0 : Fin 1) * 256 + 1 * q.val = jj.val; omega

/-- Entry `q` of window 15's piece of the bias is entry `C·256 + q` of the bias. -/
theorem read_15 (c : Dev nD) (t : Fin cfg0.N) (q : Fin 256) (jj : Fin 2048)
    (hj : jj.val = win0_17.index t (1 : Fin 2) * 256 + q.val) :
    iblk m c 15 t (ix1 q) = V m c main_arg15 (ix1 jj) := by
  show V m c main_arg15 (((cfg0.win 15).blk t).view.emb (ix1 q)) = V m c main_arg15 (ix1 jj)
  refine congrArg (V m c main_arg15) (funext fun d => Fin.ext ?_)
  have e0 := idx_15 t
  match d with
  | ⟨0, _⟩ => show win0_15.index t (0 : Fin 1) * 256 + 1 * q.val = jj.val; omega

/-- Entry `q` of window 16's piece of the bias is entry `C·256 + q` of the bias. -/
theorem read_16 (c : Dev nD) (t : Fin cfg0.N) (q : Fin 256) (jj : Fin 2048)
    (hj : jj.val = win0_17.index t (1 : Fin 2) * 256 + q.val) :
    iblk m c 16 t (ix1 q) = V m c main_arg16 (ix1 jj) := by
  show V m c main_arg16 (((cfg0.win 16).blk t).view.emb (ix1 q)) = V m c main_arg16 (ix1 jj)
  refine congrArg (V m c main_arg16) (funext fun d => Fin.ext ?_)
  have e0 := idx_16 t
  match d with
  | ⟨0, _⟩ => show win0_16.index t (0 : Fin 1) * 256 + 1 * q.val = jj.val; omega

/-! ## The arguments as the region finds them -/

/-- The seventeen arrays the kernel reads, as the region finds them: the five activation-shaped arguments, the eight
    weight matrices after the host's change of format (the identity here), the four biases. -/
def argsV (c : Dev nD) : Args where
  x := V m c main_arg0
  h := V m c main_arg1
  c := V m c main_arg2
  n := V m c main_arg3
  m := V m c main_arg4
  wi := V m c main_v0
  wf := V m c main_v1
  wo := V m c main_v2
  wz := V m c main_v3
  ri := V m c main_v4
  rf := V m c main_v5
  ro := V m c main_v6
  rz := V m c main_v7
  bi := V m c main_arg13
  bf := V m c main_arg14
  bo := V m c main_arg15
  bz := V m c main_arg16

/-! ## The gates on a tile -/

/-- Gate I on the tile at point `t`, entry `(p, q)`, is the whole arrays' gate at `(R·256 + p, C·256 + q)`. -/
theorem preI_tile (c : Dev nD) (t : Fin cfg0.N) (p q : Fin 256) (a : Fin 8192) (jj : Fin 2048)
    (ha : a.val = win0_17.index t (0 : Fin 2) * 256 + p.val) (hj : jj.val = win0_17.index t (1 : Fin 2) * 256 + q.val) :
    gate (B := 256) (H := 256) (iblk m c 0 t) (iblk m c 1 t) (iblk m c 5 t) (iblk m c 9 t) (iblk m c 13 t) p q = (argsV m c).preI a jj :=
  gate_congr (B := 256) (H := 256) (B' := 8192) (H' := 2048) _ _ _ _ _ _ _ _ _ _ p q a jj
    (fun k => read_0 m c t p k a ha) (fun k => read_1 m c t p k a ha)
    (fun k => read_5 m c t k q jj hj) (fun k => read_9 m c t k q jj hj) (read_13 m c t q jj hj)

/-- Gate F on the tile at point `t`, entry `(p, q)`, is the whole arrays' gate at `(R·256 + p, C·256 + q)`. -/
theorem preF_tile (c : Dev nD) (t : Fin cfg0.N) (p q : Fin 256) (a : Fin 8192) (jj : Fin 2048)
    (ha : a.val = win0_17.index t (0 : Fin 2) * 256 + p.val) (hj : jj.val = win0_17.index t (1 : Fin 2) * 256 + q.val) :
    gate (B := 256) (H := 256) (iblk m c 0 t) (iblk m c 1 t) (iblk m c 6 t) (iblk m c 10 t) (iblk m c 14 t) p q = (argsV m c).preF a jj :=
  gate_congr (B := 256) (H := 256) (B' := 8192) (H' := 2048) _ _ _ _ _ _ _ _ _ _ p q a jj
    (fun k => read_0 m c t p k a ha) (fun k => read_1 m c t p k a ha)
    (fun k => read_6 m c t k q jj hj) (fun k => read_10 m c t k q jj hj) (read_14 m c t q jj hj)

/-- Gate O on the tile at point `t`, entry `(p, q)`, is the whole arrays' gate at `(R·256 + p, C·256 + q)`. -/
theorem preO_tile (c : Dev nD) (t : Fin cfg0.N) (p q : Fin 256) (a : Fin 8192) (jj : Fin 2048)
    (ha : a.val = win0_17.index t (0 : Fin 2) * 256 + p.val) (hj : jj.val = win0_17.index t (1 : Fin 2) * 256 + q.val) :
    gate (B := 256) (H := 256) (iblk m c 0 t) (iblk m c 1 t) (iblk m c 7 t) (iblk m c 11 t) (iblk m c 15 t) p q = (argsV m c).preO a jj :=
  gate_congr (B := 256) (H := 256) (B' := 8192) (H' := 2048) _ _ _ _ _ _ _ _ _ _ p q a jj
    (fun k => read_0 m c t p k a ha) (fun k => read_1 m c t p k a ha)
    (fun k => read_7 m c t k q jj hj) (fun k => read_11 m c t k q jj hj) (read_15 m c t q jj hj)

/-- Gate Z on the tile at point `t`, entry `(p, q)`, is the whole arrays' gate at `(R·256 + p, C·256 + q)`. -/
theorem preZ_tile (c : Dev nD) (t : Fin cfg0.N) (p q : Fin 256) (a : Fin 8192) (jj : Fin 2048)
    (ha : a.val = win0_17.index t (0 : Fin 2) * 256 + p.val) (hj : jj.val = win0_17.index t (1 : Fin 2) * 256 + q.val) :
    gate (B := 256) (H := 256) (iblk m c 0 t) (iblk m c 1 t) (iblk m c 8 t) (iblk m c 12 t) (iblk m c 16 t) p q = (argsV m c).preZ a jj :=
  gate_congr (B := 256) (H := 256) (B' := 8192) (H' := 2048) _ _ _ _ _ _ _ _ _ _ p q a jj
    (fun k => read_0 m c t p k a ha) (fun k => read_1 m c t p k a ha)
    (fun k => read_8 m c t k q jj hj) (fun k => read_12 m c t k q jj hj) (read_16 m c t q jj hj)

end Cert.KernelIdeal.Arrays

end
-- ==== Proof.KernelTile.lean ====
/-
  One tile of the kernel, read at an index.  At a grid point the body holds 256 rows of `x` and `h`, 256 columns of each
  of the eight weight matrices and of the four biases, and the matching 256 × 256 tiles of `c`, `n`, `m`.  Read at row `p`,
  column `q` of the tile, each matrix product is the plain sum over the 2048 contracted features (the accumulator it
  starts from is zero), the bias row is broadcast down the rows, and every other operation is pointwise; so each of the
  four stored values is the cell's function (Cell.lean) of the four gates' pre-activations at `(p, q)`.  The forget gate's
  `log σ` is written the overflow-safe way in the kernel: LogSigmoid.lean's law turns it into `log σ` of the quotient.
  (A change of float format is the identity on the extended reals, so the casts to bf16 disappear.)
-/
import proofs.«103875_j21062519619836_2_alg».proof.Proof.Gen.KernelIdeal.Skeleton
import proofs.«103875_j21062519619836_2_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.SLstm

/-! ## The overflow-safe `log σ`, as the kernel spells it -/

/-- The kernel's spelling with its zero `Z` a parameter: it subtracts from `Z`, compares `(Z - f) - Z` with itself for
    "not equal" (never true on a linear order) to choose between `(Z - f) + Z` and the softplus proper. -/
def negSoftplusNegAt (Z f : EReal) : EReal :=
  Z - Scalar.select (Ideal.cmp .one ((Z - f) - Z) ((Z - f) - Z)) ((Z - f) + Z)
        (max (Z - f) Z + Ideal.log1p (Ideal.exp (Z - max ((Z - f) - Z) (-((Z - f) - Z)))))

/-- A value is never different from itself, so the comparison picks the softplus branch. -/
theorem negSoftplusNegAt_zero (f : EReal) : negSoftplusNegAt 0 f = negSoftplusNeg f := by
  unfold negSoftplusNegAt negSoftplusNeg
  have hc : Ideal.cmp .one ((0 - f) - 0) ((0 - f) - 0) = 0#1 := by simp [Ideal.cmp]
  rw [hc, select_zero]

/-- The forget gate's `log σ(f̃)`, pointwise. -/
theorem logf_apply (v25 : FVec Ideal S256x256 .f32) (j : S256x256.Idx) : k0_pay12 v25 j = logSigmoid (v25 j) := by
  have h : k0_pay12 v25 j = negSoftplusNegAt (Ideal.ofBits .f32 0x00000000#32) (v25 j) := rfl
  rw [h, Ideal.ofBits_zero_f32, negSoftplusNegAt_zero, negSoftplusNeg_eq_logSigmoid]

/-! ## The pointwise cell -/

theorem mNew_apply (v14 v25 : FVec Ideal S256x256 .f32) (v68 : Vec Ideal S256x256 .f32) (j : S256x256.Idx) :
    k0_pay13 v14 v25 v68 j = mNew (v14 j) (v25 j) (v68 j) := by
  show max (k0_pay12 v25 j + v68 j) (v14 j) = _
  rw [logf_apply]; rfl

theorem iGate_apply (v14 v25 : FVec Ideal S256x256 .f32) (v68 : Vec Ideal S256x256 .f32) (j : S256x256.Idx) :
    k0_pay14 v14 v25 v68 j = iGate (v14 j) (v25 j) (v68 j) := by
  show Ideal.exp (v14 j - k0_pay13 v14 v25 v68 j) = _
  rw [mNew_apply]; rfl

theorem fGate_apply (v14 v25 : FVec Ideal S256x256 .f32) (v68 : Vec Ideal S256x256 .f32) (j : S256x256.Idx) :
    k0_pay1 (k0_pay13 v14 v25 v68) (k0_pay15 v25 v68) j = fGate (v14 j) (v25 j) (v68 j) := by
  show Ideal.exp ((k0_pay12 v25 j + v68 j) - k0_pay13 v14 v25 v68 j) = _
  rw [mNew_apply, logf_apply]; rfl

/-- The stored cell state. -/
theorem cNew_apply (zt : FVec Ideal S256x256 .f32) (v14 v25 : FVec Ideal S256x256 .f32) (c m : Vec Ideal S256x256 .f32)
    (j : S256x256.Idx) (z : EReal) (hz : zt j = Ideal.tanh z) :
    k0_pay2 zt c (k0_pay13 v14 v25 m) (k0_pay14 v14 v25 m) (k0_pay15 v25 m) j = cNew (v14 j) (v25 j) z (c j) (m j) := by
  show k0_pay1 (k0_pay13 v14 v25 m) (k0_pay15 v25 m) j * c j + k0_pay14 v14 v25 m j * zt j = _
  rw [fGate_apply, iGate_apply, hz]; rfl

/-- The stored normalizer. -/
theorem nNew_apply (v14 v25 : FVec Ideal S256x256 .f32) (n m : Vec Ideal S256x256 .f32) (j : S256x256.Idx) :
    k0_pay3 n (k0_pay13 v14 v25 m) (k0_pay14 v14 v25 m) (k0_pay15 v25 m) j = nNew (v14 j) (v25 j) (n j) (m j) := by
  show k0_pay1 (k0_pay13 v14 v25 m) (k0_pay15 v25 m) j * n j + k0_pay14 v14 v25 m j = _
  rw [fGate_apply, iGate_apply]; rfl

/-- The stored hidden state. -/
theorem hNew_apply (ot zt : FVec Ideal S256x256 .f32) (v14 v25 : FVec Ideal S256x256 .f32) (c n m : Vec Ideal S256x256 .f32)
    (j : S256x256.Idx) (o z : EReal) (ho : ot j = Ideal.logistic o) (hz : zt j = Ideal.tanh z) :
    k0_pay4 ot zt c n (k0_pay13 v14 v25 m) (k0_pay14 v14 v25 m) (k0_pay15 v25 m) j
      = hNew (v14 j) (v25 j) o z (c j) (n j) (m j) := by
  show ot j * Ideal.div (k0_pay2 zt c (k0_pay13 v14 v25 m) (k0_pay14 v14 v25 m) (k0_pay15 v25 m) j)
      (k0_pay3 n (k0_pay13 v14 v25 m) (k0_pay14 v14 v25 m) (k0_pay15 v25 m) j) = _
  rw [cNew_apply zt v14 v25 c m j z hz, nNew_apply, ho]; rfl

end Cert.KernelIdeal.Tile

end
-- ==== Proof.KernelGate.lean ====
/-
  A gate's pre-activation on one tile.  The tile's matrix product contracts the 2048 features of a row of the activations
  with a column of the weights; its accumulator is the zero tile, so at row `p`, column `q` it is the plain sum
  `∑ₖ l[p,k] · r[k,q]`: the contraction's one axis is re-indexed by `k : Fin 2048`, the left operand read at `(p, k)`
  and the right at `(k, q)`.  The bias, a row of 256 numbers, is reshaped to one row and repeated down the 256 rows, so at
  `(p, q)` it is `b[q]`.  Together: the tile's pre-activation is `gate` (Cell.lean) of the tile's operands.
-/
import proofs.«103875_j21062519619836_2_alg».proof.Proof.Gen.KernelIdeal.Skeleton
import proofs.«103875_j21062519619836_2_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.SLstm

/-- The tile's contraction: [256, 2048] × [2048, 256] → [256, 256], axis 1 of the left against axis 0 of the right. -/
abbrev tileDims : DotDims S256x2048 S2048x256 S256x256 := dot_S256x2048_S2048x256_S256x256_1_0_0_1_n_n

/-- The left operand's row is the result's row. -/
theorem lhs_row (j : S256x256.Idx) (k : tileDims.contr.Idx) : (tileDims.lhsIdx j k 0).val = (j 0).val := by
  unfold DotDims.lhsIdx
  rw [dif_neg (show ¬(0 : Fin S256x2048.rank) ∈ tileDims.lhsBatch by decide),
    dif_pos (show (0 : Fin S256x2048.rank) ∈ tileDims.lhsNonContracting by decide)]
  rfl

/-- The right operand's column is the result's column. -/
theorem rhs_col (j : S256x256.Idx) (k : tileDims.contr.Idx) : (tileDims.rhsIdx j k 1).val = (j 1).val := by
  unfold DotDims.rhsIdx
  rw [dif_neg (show ¬(1 : Fin S2048x256.rank) ∈ tileDims.rhsBatch by decide),
    dif_pos (show (1 : Fin S2048x256.rank) ∈ tileDims.rhsNonContracting by decide)]
  rfl

/-- The tile's product from a zero accumulator, at `(p, q)`: the sum over the 2048 contracted features. -/
theorem tileDot (l : FVec Ideal S256x2048 .bf16) (r : FVec Ideal S2048x256 .bf16) (p q : Fin 256) :
    matmul tileDims none l r (constant (F := Ideal) S256x256 .f32 0x00000000#32) (ix2 p q)
      = ∑ k : Fin 2048, l (ix2 p k) * r (ix2 k q) := by
  show FloatOps.matmul tileDims none l r (constant (F := Ideal) S256x256 .f32 0x00000000#32) (ix2 p q) = _
  rw [Ideal.matmul_constant_zero_apply, ← Equiv.sum_comp (contrEquiv1 tileDims 2048 rfl rfl).symm]
  refine Finset.sum_congr rfl fun k _ => ?_
  have hk := contrEquiv1_symm_val tileDims 2048 rfl rfl k
  have el : tileDims.lhsIdx (ix2 p q) ((contrEquiv1 tileDims 2048 rfl rfl).symm k) = ix2 p k := funext fun a => Fin.ext (by
    match a with
    | ⟨0, _⟩ => exact lhs_row _ _
    | ⟨1, _⟩ => exact (tileDims.lhsIdx_val_of_single rfl _ _).trans hk)
  have er : tileDims.rhsIdx (ix2 p q) ((contrEquiv1 tileDims 2048 rfl rfl).symm k) = ix2 k q := funext fun a => Fin.ext (by
    match a with
    | ⟨0, _⟩ => exact (tileDims.rhsIdx_val_of_single rfl _ _).trans hk
    | ⟨1, _⟩ => exact rhs_col _ _)
  rw [el, er]

/-- The bias row repeated down the tile's rows. -/
theorem bias_apply (b : FVec Ideal S256 .f32) (p q : Fin 256) :
    broadcastTo S256x256 (shapeCast S1x256 b shapeCasts_S256_S1x256) broadcasts_S1x256_S256x256 (ix2 p q) = b (ix1 q) :=
  (broadcastTo_1b_ab_apply _ _ p q).trans (shapeCast_a_1a_apply b _ 0 q)

/-- The two products and the bias of one gate, at `(p, q)`, from operands already in the product's format. -/
theorem gate_of (l1 l2 : FVec Ideal S256x2048 .bf16) (w r : FVec Ideal S2048x256 .bf16) (b : FVec Ideal S256 .f32) (p q : Fin 256) :
    (matmul tileDims none l1 (shapeCast S2048x256 w shapeCasts_S2048x256_S2048x256) (constant (F := Ideal) S256x256 .f32 0x00000000#32) (ix2 p q)
      + matmul tileDims none l2 (shapeCast S2048x256 r shapeCasts_S2048x256_S2048x256) (constant (F := Ideal) S256x256 .f32 0x00000000#32) (ix2 p q))
      + broadcastTo S256x256 (shapeCast S1x256 b shapeCasts_S256_S1x256) broadcasts_S1x256_S256x256 (ix2 p q)
      = gate l1 l2 w r b p q := by
  rw [tileDot, tileDot, bias_apply, shapeCast_self, shapeCast_self]
  rfl

/-- The input gate's pre-activation (and, with other operands, the forget gate's: the two payloads are one text). -/
theorem pre_i_apply (v0 v2 : Vec Ideal S256x2048 .f32) (w r : Vec Ideal S2048x256 .bf16) (b : Vec Ideal S256 .f32) (p q : Fin 256) :
    k0_pay7 v0 v2 w r b (ix2 p q) = gate v0 v2 w r b p q :=
  gate_of (k0_pay5 v0) (k0_pay6 v2) w r b p q

theorem pre_f_apply (v0 v2 : Vec Ideal S256x2048 .f32) (w r : Vec Ideal S2048x256 .bf16) (b : Vec Ideal S256 .f32) (p q : Fin 256) :
    k0_pay8 v0 v2 w r b (ix2 p q) = gate v0 v2 w r b p q :=
  gate_of (k0_pay5 v0) (k0_pay6 v2) w r b p q

/-- The output gate: `σ` of its pre-activation. -/
theorem out_gate_apply (v0 v2 : Vec Ideal S256x2048 .f32) (w r : Vec Ideal S2048x256 .bf16) (b : Vec Ideal S256 .f32) (p q : Fin 256) :
    k0_pay10 (k0_pay9 v0 v2 w r) b (ix2 p q) = Ideal.logistic (gate v0 v2 w r b p q) :=
  congrArg Ideal.logistic (gate_of (k0_pay5 v0) (k0_pay6 v2) w r b p q)

/-- The cell input: `tanh` of its pre-activation. -/
theorem cell_in_apply (v0 v2 : Vec Ideal S256x2048 .f32) (w r : Vec Ideal S2048x256 .bf16) (b : Vec Ideal S256 .f32) (p q : Fin 256) :
    k0_pay11 (k0_pay5 v0) (k0_pay6 v2) w r b (ix2 p q) = Ideal.tanh (gate v0 v2 w r b p q) :=
  congrArg Ideal.tanh (gate_of (k0_pay5 v0) (k0_pay6 v2) w r b p q)

end Cert.KernelIdeal.Tile

end
-- ==== Proof.KernelArrays.lean ====
/-
  From tiles to arrays.  At every grid point the body stores one 256 × 256 tile of each result, and what it stores at
  entry `(p, q)` is the cell's function of the four gates on the tiles (KernelTile.lean, KernelGate.lean), which are the
  whole arrays' gates at row `R·256 + p`, column `C·256 + q` (KernelReads.lean): the tile written back at point `t` is
  block `t` of the specification's array (Cell.lean).  The 32 × 8 blocks tile the 8192 × 2048 array — the index `(i₀, i₁)`
  lies in the block of the point with block row `i₀ / 256` and block column `i₁ / 256`, and every such pair is some
  point's — so after the last point each result array IS the specification's array.
-/
import proofs.«103875_j21062519619836_2_alg».proof.Proof.KernelReads
import proofs.«103875_j21062519619836_2_alg».proof.Proof.KernelTile
import proofs.«103875_j21062519619836_2_alg».proof.Proof.KernelGate

set_option maxRecDepth 16384

noncomputable section

namespace Cert.KernelIdeal.Arrays

open Cert.KernelIdeal Cert.KernelIdeal.Gen Idealize.ShloMosaic Idealize.ShloMosaic.TcCoe Idealize.SL.Sem Idealize.ShloMosaic.ValueIdx Cert.SLstm Cert.KernelIdeal.Tile
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- Every block of the 32 × 8 grid of tiles is some point's. -/
theorem idx_onto : ∀ (q0 : Fin 32) (q1 : Fin 8), ∃ t : Fin cfg0.N, win0_17.index t = ![q0.val, q1.val] :=
  (by decide +kernel : ∀ (q0 : Fin 32) (q1 : Fin 8), ∃ t : Fin grid0.N, win0_17.index t = ![q0.val, q1.val])

/-! ## Output window 17: the new hidden state -/

/-- What point `t` writes back is block `t` of the specification's array. -/
theorem flushed_h (c : Dev nD) (t : Fin cfg0.N) :
    (dats m 0 c).flushed 17 t = ((cfg0.win 17).blk t).view.read (Elt Ideal) (argsV m c).hOut := by
  show (cfg0.win 17).cut (grid0.coords t) ((dats m 0 c).after 17 t) = _
  rw [after0_17]
  unfold out0_17
  rw [View.canon_unit_zero hz2]
  simp only [View.ld_unit_zero (S := S256x2048) hz2, View.ld_unit_zero (S := S2048x256) hz2, View.ld_unit_zero (S := S256) hz1,
    View.ld_unit_zero (S := S256x256) hz2]
  funext y
  obtain ⟨p, q, rfl⟩ : ∃ (p q : Fin 256), y = ix2 p q := ⟨y 0, y 1, eq_ix2 y⟩
  obtain ⟨hR, hC⟩ := idx_out t
  have hp := p.isLt
  have hq := q.isLt
  let a : Fin 8192 := ⟨win0_17.index t (0 : Fin 2) * 256 + p.val, by omega⟩
  let jj : Fin 2048 := ⟨win0_17.index t (1 : Fin 2) * 256 + q.val, by omega⟩
  have hemb : ((cfg0.win 17).blk t).view.emb (ix2 p q) = ix2 a jj := funext fun d => Fin.ext (by
    match d with
    | ⟨0, _⟩ => show win0_17.index t (0 : Fin 2) * 256 + 1 * p.val = win0_17.index t (0 : Fin 2) * 256 + p.val; omega
    | ⟨1, _⟩ => show win0_17.index t (1 : Fin 2) * 256 + 1 * q.val = win0_17.index t (1 : Fin 2) * 256 + q.val; omega)
  refine Eq.trans (hNew_apply (k0_pay10 (k0_pay9 (iblk m c 0 t) (iblk m c 1 t) (iblk m c 7 t) (iblk m c 11 t)) (iblk m c 15 t)) (k0_pay11 (k0_pay5 (iblk m c 0 t)) (k0_pay6 (iblk m c 1 t)) (iblk m c 8 t) (iblk m c 12 t) (iblk m c 16 t)) (k0_pay7 (iblk m c 0 t) (iblk m c 1 t) (iblk m c 5 t) (iblk m c 9 t) (iblk m c 13 t)) (k0_pay8 (iblk m c 0 t) (iblk m c 1 t) (iblk m c 6 t) (iblk m c 10 t) (iblk m c 14 t)) (iblk m c 2 t) (iblk m c 3 t) (iblk m c 4 t) (ix2 p q) _ _ (out_gate_apply (iblk m c 0 t) (iblk m c 1 t) (iblk m c 7 t) (iblk m c 11 t) (iblk m c 15 t) p q) (cell_in_apply (iblk m c 0 t) (iblk m c 1 t) (iblk m c 8 t) (iblk m c 12 t) (iblk m c 16 t) p q)) ?_
  rw [pre_i_apply (iblk m c 0 t) (iblk m c 1 t) (iblk m c 5 t) (iblk m c 9 t) (iblk m c 13 t) p q, pre_f_apply (iblk m c 0 t) (iblk m c 1 t) (iblk m c 6 t) (iblk m c 10 t) (iblk m c 14 t) p q,
    preI_tile m c t p q a jj rfl rfl,
    preF_tile m c t p q a jj rfl rfl,
    preO_tile m c t p q a jj rfl rfl,
    preZ_tile m c t p q a jj rfl rfl,
    read_2 m c t p q a jj rfl rfl,
    read_3 m c t p q a jj rfl rfl,
    read_4 m c t p q a jj rfl rfl]
  show _ = (argsV m c).hOut (((cfg0.win 17).blk t).view.emb (ix2 p q))
  rw [hemb]
  rfl

/-- An index of the array is in point `t`'s block iff each coordinate is in the block's range on its axis. -/
theorem mem_blk_h (t : Fin cfg0.N) (i : S8192x2048.Idx) :
    i ∈ ((cfg0.win 17).blk t).view.set ↔ ∀ a : Fin 2, win0_17.index t a * S256x256.size a ≤ (i a).val ∧ (i a).val < win0_17.index t a * S256x256.size a + S256x256.size a := by
  show i ∈ ((View.whole main_v8_0).slice (win0_17.rect t)).set ↔ _
  rw [View.set_slice_whole, Rect.mem_set_unit]
  exact Iff.rfl

/-- Every index of the array is in some point's block: the tiles fill it. -/
theorem cover_h (i : S8192x2048.Idx) : ∃ t : Fin cfg0.N, (cfg0.win 17).flush t = true ∧ i ∈ ((cfg0.win 17).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_17.index t (0 : Fin 2) = (i 0).val / 256 := congrFun ht 0
  have q1 : win0_17.index t (1 : Fin 2) = (i 1).val / 256 := congrFun ht 1
  refine ⟨t, flush0_17 t, ?_⟩
  rw [mem_blk_h]
  intro a
  match a with
  | ⟨0, _⟩ => show win0_17.index t (0 : Fin 2) * 256 ≤ (i 0).val ∧ (i 0).val < win0_17.index t (0 : Fin 2) * 256 + 256; omega
  | ⟨1, _⟩ => show win0_17.index t (1 : Fin 2) * 256 ≤ (i 1).val ∧ (i 1).val < win0_17.index t (1 : Fin 2) * 256 + 256; omega

/-- The array after the run is the specification's. -/
theorem final_h (c : Dev nD) : (dats m 0 c).arrAt 17 cfg0.N = (argsV m c).hOut :=
  (dats m 0 c).arrAt_eq_of_cover 17 (argsV m c).hOut (fun t _ => flushed_h m c t) cover_h

/-! ## Output window 18: the new cell state -/

/-- What point `t` writes back is block `t` of the specification's array. -/
theorem flushed_c (c : Dev nD) (t : Fin cfg0.N) :
    (dats m 0 c).flushed 18 t = ((cfg0.win 18).blk t).view.read (Elt Ideal) (argsV m c).cOut := by
  show (cfg0.win 18).cut (grid0.coords t) ((dats m 0 c).after 18 t) = _
  rw [after0_18]
  unfold out0_18
  rw [View.canon_unit_zero hz2]
  simp only [View.ld_unit_zero (S := S256x2048) hz2, View.ld_unit_zero (S := S2048x256) hz2, View.ld_unit_zero (S := S256) hz1,
    View.ld_unit_zero (S := S256x256) hz2]
  funext y
  obtain ⟨p, q, rfl⟩ : ∃ (p q : Fin 256), y = ix2 p q := ⟨y 0, y 1, eq_ix2 y⟩
  obtain ⟨hR, hC⟩ := idx_out t
  obtain ⟨e0, e1⟩ := idx_18 t
  have hp := p.isLt
  have hq := q.isLt
  let a : Fin 8192 := ⟨win0_17.index t (0 : Fin 2) * 256 + p.val, by omega⟩
  let jj : Fin 2048 := ⟨win0_17.index t (1 : Fin 2) * 256 + q.val, by omega⟩
  have hemb : ((cfg0.win 18).blk t).view.emb (ix2 p q) = ix2 a jj := funext fun d => Fin.ext (by
    match d with
    | ⟨0, _⟩ => show win0_18.index t (0 : Fin 2) * 256 + 1 * p.val = win0_17.index t (0 : Fin 2) * 256 + p.val; omega
    | ⟨1, _⟩ => show win0_18.index t (1 : Fin 2) * 256 + 1 * q.val = win0_17.index t (1 : Fin 2) * 256 + q.val; omega)
  refine Eq.trans (cNew_apply (k0_pay11 (k0_pay5 (iblk m c 0 t)) (k0_pay6 (iblk m c 1 t)) (iblk m c 8 t) (iblk m c 12 t) (iblk m c 16 t)) (k0_pay7 (iblk m c 0 t) (iblk m c 1 t) (iblk m c 5 t) (iblk m c 9 t) (iblk m c 13 t)) (k0_pay8 (iblk m c 0 t) (iblk m c 1 t) (iblk m c 6 t) (iblk m c 10 t) (iblk m c 14 t)) (iblk m c 2 t) (iblk m c 4 t) (ix2 p q) _ (cell_in_apply (iblk m c 0 t) (iblk m c 1 t) (iblk m c 8 t) (iblk m c 12 t) (iblk m c 16 t) p q)) ?_
  rw [pre_i_apply (iblk m c 0 t) (iblk m c 1 t) (iblk m c 5 t) (iblk m c 9 t) (iblk m c 13 t) p q, pre_f_apply (iblk m c 0 t) (iblk m c 1 t) (iblk m c 6 t) (iblk m c 10 t) (iblk m c 14 t) p q,
    preI_tile m c t p q a jj rfl rfl,
    preF_tile m c t p q a jj rfl rfl,
    preZ_tile m c t p q a jj rfl rfl,
    read_2 m c t p q a jj rfl rfl,
    read_4 m c t p q a jj rfl rfl]
  show _ = (argsV m c).cOut (((cfg0.win 18).blk t).view.emb (ix2 p q))
  rw [hemb]
  rfl

/-- An index of the array is in point `t`'s block iff each coordinate is in the block's range on its axis. -/
theorem mem_blk_c (t : Fin cfg0.N) (i : S8192x2048.Idx) :
    i ∈ ((cfg0.win 18).blk t).view.set ↔ ∀ a : Fin 2, win0_18.index t a * S256x256.size a ≤ (i a).val ∧ (i a).val < win0_18.index t a * S256x256.size a + S256x256.size a := by
  show i ∈ ((View.whole main_v8_1).slice (win0_18.rect t)).set ↔ _
  rw [View.set_slice_whole, Rect.mem_set_unit]
  exact Iff.rfl

/-- Every index of the array is in some point's block: the tiles fill it. -/
theorem cover_c (i : S8192x2048.Idx) : ∃ t : Fin cfg0.N, (cfg0.win 18).flush t = true ∧ i ∈ ((cfg0.win 18).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_17.index t (0 : Fin 2) = (i 0).val / 256 := congrFun ht 0
  have q1 : win0_17.index t (1 : Fin 2) = (i 1).val / 256 := congrFun ht 1
  obtain ⟨e0, e1⟩ := idx_18 t
  refine ⟨t, flush0_18 t, ?_⟩
  rw [mem_blk_c]
  intro a
  match a with
  | ⟨0, _⟩ => show win0_18.index t (0 : Fin 2) * 256 ≤ (i 0).val ∧ (i 0).val < win0_18.index t (0 : Fin 2) * 256 + 256; omega
  | ⟨1, _⟩ => show win0_18.index t (1 : Fin 2) * 256 ≤ (i 1).val ∧ (i 1).val < win0_18.index t (1 : Fin 2) * 256 + 256; omega

/-- The array after the run is the specification's. -/
theorem final_c (c : Dev nD) : (dats m 0 c).arrAt 18 cfg0.N = (argsV m c).cOut :=
  (dats m 0 c).arrAt_eq_of_cover 18 (argsV m c).cOut (fun t _ => flushed_c m c t) cover_c

/-! ## Output window 19: the new normalizer -/

/-- What point `t` writes back is block `t` of the specification's array. -/
theorem flushed_n (c : Dev nD) (t : Fin cfg0.N) :
    (dats m 0 c).flushed 19 t = ((cfg0.win 19).blk t).view.read (Elt Ideal) (argsV m c).nOut := by
  show (cfg0.win 19).cut (grid0.coords t) ((dats m 0 c).after 19 t) = _
  rw [after0_19]
  unfold out0_19
  rw [View.canon_unit_zero hz2]
  simp only [View.ld_unit_zero (S := S256x2048) hz2, View.ld_unit_zero (S := S2048x256) hz2, View.ld_unit_zero (S := S256) hz1,
    View.ld_unit_zero (S := S256x256) hz2]
  funext y
  obtain ⟨p, q, rfl⟩ : ∃ (p q : Fin 256), y = ix2 p q := ⟨y 0, y 1, eq_ix2 y⟩
  obtain ⟨hR, hC⟩ := idx_out t
  obtain ⟨e0, e1⟩ := idx_19 t
  have hp := p.isLt
  have hq := q.isLt
  let a : Fin 8192 := ⟨win0_17.index t (0 : Fin 2) * 256 + p.val, by omega⟩
  let jj : Fin 2048 := ⟨win0_17.index t (1 : Fin 2) * 256 + q.val, by omega⟩
  have hemb : ((cfg0.win 19).blk t).view.emb (ix2 p q) = ix2 a jj := funext fun d => Fin.ext (by
    match d with
    | ⟨0, _⟩ => show win0_19.index t (0 : Fin 2) * 256 + 1 * p.val = win0_17.index t (0 : Fin 2) * 256 + p.val; omega
    | ⟨1, _⟩ => show win0_19.index t (1 : Fin 2) * 256 + 1 * q.val = win0_17.index t (1 : Fin 2) * 256 + q.val; omega)
  refine Eq.trans (nNew_apply (k0_pay7 (iblk m c 0 t) (iblk m c 1 t) (iblk m c 5 t) (iblk m c 9 t) (iblk m c 13 t)) (k0_pay8 (iblk m c 0 t) (iblk m c 1 t) (iblk m c 6 t) (iblk m c 10 t) (iblk m c 14 t)) (iblk m c 3 t) (iblk m c 4 t) (ix2 p q)) ?_
  rw [pre_i_apply (iblk m c 0 t) (iblk m c 1 t) (iblk m c 5 t) (iblk m c 9 t) (iblk m c 13 t) p q, pre_f_apply (iblk m c 0 t) (iblk m c 1 t) (iblk m c 6 t) (iblk m c 10 t) (iblk m c 14 t) p q,
    preI_tile m c t p q a jj rfl rfl,
    preF_tile m c t p q a jj rfl rfl,
    read_3 m c t p q a jj rfl rfl,
    read_4 m c t p q a jj rfl rfl]
  show _ = (argsV m c).nOut (((cfg0.win 19).blk t).view.emb (ix2 p q))
  rw [hemb]
  rfl

/-- An index of the array is in point `t`'s block iff each coordinate is in the block's range on its axis. -/
theorem mem_blk_n (t : Fin cfg0.N) (i : S8192x2048.Idx) :
    i ∈ ((cfg0.win 19).blk t).view.set ↔ ∀ a : Fin 2, win0_19.index t a * S256x256.size a ≤ (i a).val ∧ (i a).val < win0_19.index t a * S256x256.size a + S256x256.size a := by
  show i ∈ ((View.whole main_v8_2).slice (win0_19.rect t)).set ↔ _
  rw [View.set_slice_whole, Rect.mem_set_unit]
  exact Iff.rfl

/-- Every index of the array is in some point's block: the tiles fill it. -/
theorem cover_n (i : S8192x2048.Idx) : ∃ t : Fin cfg0.N, (cfg0.win 19).flush t = true ∧ i ∈ ((cfg0.win 19).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_17.index t (0 : Fin 2) = (i 0).val / 256 := congrFun ht 0
  have q1 : win0_17.index t (1 : Fin 2) = (i 1).val / 256 := congrFun ht 1
  obtain ⟨e0, e1⟩ := idx_19 t
  refine ⟨t, flush0_19 t, ?_⟩
  rw [mem_blk_n]
  intro a
  match a with
  | ⟨0, _⟩ => show win0_19.index t (0 : Fin 2) * 256 ≤ (i 0).val ∧ (i 0).val < win0_19.index t (0 : Fin 2) * 256 + 256; omega
  | ⟨1, _⟩ => show win0_19.index t (1 : Fin 2) * 256 ≤ (i 1).val ∧ (i 1).val < win0_19.index t (1 : Fin 2) * 256 + 256; omega

/-- The array after the run is the specification's. -/
theorem final_n (c : Dev nD) : (dats m 0 c).arrAt 19 cfg0.N = (argsV m c).nOut :=
  (dats m 0 c).arrAt_eq_of_cover 19 (argsV m c).nOut (fun t _ => flushed_n m c t) cover_n

/-! ## Output window 20: the new stabilizer -/

/-- What point `t` writes back is block `t` of the specification's array. -/
theorem flushed_m (c : Dev nD) (t : Fin cfg0.N) :
    (dats m 0 c).flushed 20 t = ((cfg0.win 20).blk t).view.read (Elt Ideal) (argsV m c).mOut := by
  show (cfg0.win 20).cut (grid0.coords t) ((dats m 0 c).after 20 t) = _
  rw [after0_20]
  unfold out0_20
  rw [View.canon_unit_zero hz2]
  simp only [View.ld_unit_zero (S := S256x2048) hz2, View.ld_unit_zero (S := S2048x256) hz2, View.ld_unit_zero (S := S256) hz1,
    View.ld_unit_zero (S := S256x256) hz2]
  funext y
  obtain ⟨p, q, rfl⟩ : ∃ (p q : Fin 256), y = ix2 p q := ⟨y 0, y 1, eq_ix2 y⟩
  obtain ⟨hR, hC⟩ := idx_out t
  obtain ⟨e0, e1⟩ := idx_20 t
  have hp := p.isLt
  have hq := q.isLt
  let a : Fin 8192 := ⟨win0_17.index t (0 : Fin 2) * 256 + p.val, by omega⟩
  let jj : Fin 2048 := ⟨win0_17.index t (1 : Fin 2) * 256 + q.val, by omega⟩
  have hemb : ((cfg0.win 20).blk t).view.emb (ix2 p q) = ix2 a jj := funext fun d => Fin.ext (by
    match d with
    | ⟨0, _⟩ => show win0_20.index t (0 : Fin 2) * 256 + 1 * p.val = win0_17.index t (0 : Fin 2) * 256 + p.val; omega
    | ⟨1, _⟩ => show win0_20.index t (1 : Fin 2) * 256 + 1 * q.val = win0_17.index t (1 : Fin 2) * 256 + q.val; omega)
  refine Eq.trans (mNew_apply (k0_pay7 (iblk m c 0 t) (iblk m c 1 t) (iblk m c 5 t) (iblk m c 9 t) (iblk m c 13 t)) (k0_pay8 (iblk m c 0 t) (iblk m c 1 t) (iblk m c 6 t) (iblk m c 10 t) (iblk m c 14 t)) (iblk m c 4 t) (ix2 p q)) ?_
  rw [pre_i_apply (iblk m c 0 t) (iblk m c 1 t) (iblk m c 5 t) (iblk m c 9 t) (iblk m c 13 t) p q, pre_f_apply (iblk m c 0 t) (iblk m c 1 t) (iblk m c 6 t) (iblk m c 10 t) (iblk m c 14 t) p q,
    preI_tile m c t p q a jj rfl rfl,
    preF_tile m c t p q a jj rfl rfl,
    read_4 m c t p q a jj rfl rfl]
  show _ = (argsV m c).mOut (((cfg0.win 20).blk t).view.emb (ix2 p q))
  rw [hemb]
  rfl

/-- An index of the array is in point `t`'s block iff each coordinate is in the block's range on its axis. -/
theorem mem_blk_m (t : Fin cfg0.N) (i : S8192x2048.Idx) :
    i ∈ ((cfg0.win 20).blk t).view.set ↔ ∀ a : Fin 2, win0_20.index t a * S256x256.size a ≤ (i a).val ∧ (i a).val < win0_20.index t a * S256x256.size a + S256x256.size a := by
  show i ∈ ((View.whole main_v8_3).slice (win0_20.rect t)).set ↔ _
  rw [View.set_slice_whole, Rect.mem_set_unit]
  exact Iff.rfl

/-- Every index of the array is in some point's block: the tiles fill it. -/
theorem cover_m (i : S8192x2048.Idx) : ∃ t : Fin cfg0.N, (cfg0.win 20).flush t = true ∧ i ∈ ((cfg0.win 20).blk t).view.set := by
  have hi0 : (i 0).val < 8192 := (i 0).isLt
  have hi1 : (i 1).val < 2048 := (i 1).isLt
  obtain ⟨t, ht⟩ := idx_onto ⟨(i 0).val / 256, by omega⟩ ⟨(i 1).val / 256, by omega⟩
  have q0 : win0_17.index t (0 : Fin 2) = (i 0).val / 256 := congrFun ht 0
  have q1 : win0_17.index t (1 : Fin 2) = (i 1).val / 256 := congrFun ht 1
  obtain ⟨e0, e1⟩ := idx_20 t
  refine ⟨t, flush0_20 t, ?_⟩
  rw [mem_blk_m]
  intro a
  match a with
  | ⟨0, _⟩ => show win0_20.index t (0 : Fin 2) * 256 ≤ (i 0).val ∧ (i 0).val < win0_20.index t (0 : Fin 2) * 256 + 256; omega
  | ⟨1, _⟩ => show win0_20.index t (1 : Fin 2) * 256 ≤ (i 1).val ∧ (i 1).val < win0_20.index t (1 : Fin 2) * 256 + 256; omega

/-- The array after the run is the specification's. -/
theorem final_m (c : Dev nD) : (dats m 0 c).arrAt 20 cfg0.N = (argsV m c).mOut :=
  (dats m 0 c).arrAt_eq_of_cover 20 (argsV m c).mOut (fun t _ => flushed_m m c t) cover_m

end Cert.KernelIdeal.Arrays

end
-- ==== Proof.Tail.lean ====
/-
  The final projection `h' · fc_w + fc_b`: one contraction of each row of `h'` with the single column of `fc_w`, plus the
  one bias number repeated down the 8192 rows.  Both programs apply exactly these host operations to their own `h'` and
  to the same `fc_w`, `fc_b`; the certificate proves the two `h'` equal and never opens this function.
-/
import proofs.«103875_j21062519619836_2_alg».proof.Proof.Gen.ReferenceIdeal
import Idealize.ShloMosaic.PureOps.Ideal

noncomputable section

namespace Cert.SLstm

open Idealize.ShloMosaic Cert.ReferenceIdeal Cert.ReferenceIdeal.Gen

/-- The scalar result per row: `∑ⱼ h'[a, j] · fc_w[j, 0] + fc_b[0]`, as the host operations spell it. -/
def project (hh : FVec Ideal S8192x2048 .f32) (fcw : FVec Ideal S2048x1 .f32) (fcb : FVec Ideal S1 .f32) : FVec Ideal S8192x1 .f32 :=
  addf (Host.dotGeneral (F := Ideal) dot_S8192x2048_S2048x1_S8192x1_1_0_0_1_n_n none hh fcw)
    (broadcastInDim S8192x1 ![0, 1] Facts₀.bcast_S1x1_S8192x1_0_1 (broadcastInDim S1x1 ![1] Facts₀.bcast_S1_S1x1_1 fcb))

end Cert.SLstm

end
-- ==== Proof.KernelRun.lean ====
/-
  The kernel's run, read.  Before the region the host only changes the eight weight matrices' float format, which is the
  identity on the extended reals, so the arrays the region finds are the arguments as launched.  After the region the
  host contracts the new hidden state with `fc_w` and adds `fc_b`: the projection `project` (Tail.lean) of the hidden
  state's array.  So every weakly fair execution of the kernel's program terminates with the four result arrays at the
  specification's arrays (Cell.lean) of the arguments as launched, the scalar result at `project` of the hidden state,
  and the arguments unchanged.
-/
import proofs.«103875_j21062519619836_2_alg».proof.Proof.KernelArrays
import proofs.«103875_j21062519619836_2_alg».proof.Proof.Tail
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem Idealize.ShloMosaic.ValueIdx Cert.SLstm
open Idealize.ShloMosaic.Pipeline (Dat)

variable (m : (ℓ : Loc nD τ sig) → Buf (Elt Ideal) ℓ) (ρ : Dev nD → PrngReg)

/-! ## The weights the region finds are the weights as launched -/

theorem V_v0 (c : Dev nD) : (V m c main_v0 : S2048x2048.Idx → EReal) = m ((c : Thread nD τ).loc main_arg5) := by
  show StableHlo.after hostOps0 (fun b => m (c, b)) (Proc.devRef .tc main_v0) = _
  after_results
  rfl

theorem V_v1 (c : Dev nD) : (V m c main_v1 : S2048x2048.Idx → EReal) = m ((c : Thread nD τ).loc main_arg6) := by
  show StableHlo.after hostOps0 (fun b => m (c, b)) (Proc.devRef .tc main_v1) = _
  after_results
  rfl

theorem V_v2 (c : Dev nD) : (V m c main_v2 : S2048x2048.Idx → EReal) = m ((c : Thread nD τ).loc main_arg7) := by
  show StableHlo.after hostOps0 (fun b => m (c, b)) (Proc.devRef .tc main_v2) = _
  after_results
  rfl

theorem V_v3 (c : Dev nD) : (V m c main_v3 : S2048x2048.Idx → EReal) = m ((c : Thread nD τ).loc main_arg8) := by
  show StableHlo.after hostOps0 (fun b => m (c, b)) (Proc.devRef .tc main_v3) = _
  after_results
  rfl

theorem V_v4 (c : Dev nD) : (V m c main_v4 : S2048x2048.Idx → EReal) = m ((c : Thread nD τ).loc main_arg9) := by
  show StableHlo.after hostOps0 (fun b => m (c, b)) (Proc.devRef .tc main_v4) = _
  after_results
  rfl

theorem V_v5 (c : Dev nD) : (V m c main_v5 : S2048x2048.Idx → EReal) = m ((c : Thread nD τ).loc main_arg10) := by
  show StableHlo.after hostOps0 (fun b => m (c, b)) (Proc.devRef .tc main_v5) = _
  after_results
  rfl

theorem V_v6 (c : Dev nD) : (V m c main_v6 : S2048x2048.Idx → EReal) = m ((c : Thread nD τ).loc main_arg11) := by
  show StableHlo.after hostOps0 (fun b => m (c, b)) (Proc.devRef .tc main_v6) = _
  after_results
  rfl

theorem V_v7 (c : Dev nD) : (V m c main_v7 : S2048x2048.Idx → EReal) = m ((c : Thread nD τ).loc main_arg12) := by
  show StableHlo.after hostOps0 (fun b => m (c, b)) (Proc.devRef .tc main_v7) = _
  after_results
  rfl

/-- The seventeen arrays the cell reads, as launched. -/
def argsM (c : Dev nD) : Args where
  x := m ((c : Thread nD τ).loc main_arg0)
  h := m ((c : Thread nD τ).loc main_arg1)
  c := m ((c : Thread nD τ).loc main_arg2)
  n := m ((c : Thread nD τ).loc main_arg3)
  m := m ((c : Thread nD τ).loc main_arg4)
  wi := m ((c : Thread nD τ).loc main_arg5)
  wf := m ((c : Thread nD τ).loc main_arg6)
  wo := m ((c : Thread nD τ).loc main_arg7)
  wz := m ((c : Thread nD τ).loc main_arg8)
  ri := m ((c : Thread nD τ).loc main_arg9)
  rf := m ((c : Thread nD τ).loc main_arg10)
  ro := m ((c : Thread nD τ).loc main_arg11)
  rz := m ((c : Thread nD τ).loc main_arg12)
  bi := m ((c : Thread nD τ).loc main_arg13)
  bf := m ((c : Thread nD τ).loc main_arg14)
  bo := m ((c : Thread nD τ).loc main_arg15)
  bz := m ((c : Thread nD τ).loc main_arg16)

theorem argsV_eq (c : Dev nD) : argsV m c = argsM m c := by
  unfold argsV argsM
  rw [V_main_arg0 m c, V_main_arg1 m c, V_main_arg2 m c, V_main_arg3 m c, V_main_arg4 m c, V_v0 m c, V_v1 m c, V_v2 m c, V_v3 m c, V_v4 m c, V_v5 m c, V_v6 m c, V_v7 m c, V_main_arg13 m c, V_main_arg14 m c, V_main_arg15 m c, V_main_arg16 m c]

/-! ## The projection after the region -/

/-- The host's lines after the region leave the scalar result at the projection of the hidden state's final array. -/
theorem tail_eq (c : Dev nD) :
    Pipeline.afterTail₀ cfgs (dats m) 0 (V0 m) [hostOps1] c main_v12
      = project ((dats m 0 c).arrAt 17 cfg0.N) (m ((c : Thread nD τ).loc main_arg17)) (m ((c : Thread nD τ).loc main_arg18)) := by
  unfold Pipeline.afterTail₀
  show StableHlo.after hostOps1 _ (Proc.devRef .tc main_v12) = _
  after_results
  have e0 : Pipeline.withArrays (cfgs 0).spec c (V0 m c) (fun w => (dats m 0 c).arrAt w (cfgs 0).N) (Proc.devRef .tc main_v8_0) = (dats m 0 c).arrAt 17 cfg0.N :=
    Pipeline.withArrays_arr spec0 launch0.win.arr_inj c _ _ 17
  have e17 : Pipeline.withArrays (cfgs 0).spec c (V0 m c) (fun w => (dats m 0 c).arrAt w (cfgs 0).N) (Proc.devRef .tc main_arg17) = m ((c : Thread nD τ).loc main_arg17) :=
    (Pipeline.withArrays_of_ne _ c (V0 m c) _ main_arg17 (by exact (by decide : ∀ w, Pipeline.arrRef spec0 w ≠ main_arg17))).trans (V_main_arg17 m c)
  have e18 : Pipeline.withArrays (cfgs 0).spec c (V0 m c) (fun w => (dats m 0 c).arrAt w (cfgs 0).N) (Proc.devRef .tc main_arg18) = m ((c : Thread nD τ).loc main_arg18) :=
    (Pipeline.withArrays_of_ne _ c (V0 m c) _ main_arg18 (by exact (by decide : ∀ w, Pipeline.arrRef spec0 w ≠ main_arg18))).trans (V_main_arg18 m c)
  rw [e0, e17, e18]
  rfl

/-! ## The frame run's post, read one buffer at a time -/

theorem res_h (r : PUnit × MemSt nD τ sig (Elt Ideal)) (h : Pipeline.FramePost cfgs (dats m) 0 (Pipeline.afterTail₀ cfgs (dats m) 0 (V0 m) [hostOps1]) r) (c : Dev nD) : r.2.mem ((c.tc : Thread nD τ).loc main_v8_0) = (argsM m c).hOut :=
  ((h c).1 17).trans ((final_h m c).trans (congrArg Args.hOut (argsV_eq m c)))

theorem res_c (r : PUnit × MemSt nD τ sig (Elt Ideal)) (h : Pipeline.FramePost cfgs (dats m) 0 (Pipeline.afterTail₀ cfgs (dats m) 0 (V0 m) [hostOps1]) r) (c : Dev nD) : r.2.mem ((c.tc : Thread nD τ).loc main_v8_1) = (argsM m c).cOut :=
  ((h c).1 18).trans ((final_c m c).trans (congrArg Args.cOut (argsV_eq m c)))

theorem res_n (r : PUnit × MemSt nD τ sig (Elt Ideal)) (h : Pipeline.FramePost cfgs (dats m) 0 (Pipeline.afterTail₀ cfgs (dats m) 0 (V0 m) [hostOps1]) r) (c : Dev nD) : r.2.mem ((c.tc : Thread nD τ).loc main_v8_2) = (argsM m c).nOut :=
  ((h c).1 19).trans ((final_n m c).trans (congrArg Args.nOut (argsV_eq m c)))

theorem res_m (r : PUnit × MemSt nD τ sig (Elt Ideal)) (h : Pipeline.FramePost cfgs (dats m) 0 (Pipeline.afterTail₀ cfgs (dats m) 0 (V0 m) [hostOps1]) r) (c : Dev nD) : r.2.mem ((c.tc : Thread nD τ).loc main_v8_3) = (argsM m c).mOut :=
  ((h c).1 20).trans ((final_m m c).trans (congrArg Args.mOut (argsV_eq m c)))

theorem res_out (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v12)
      = project (argsM m c).hOut (m ((c.tc : Thread nD τ).loc main_arg17)) (m ((c.tc : Thread nD τ).loc main_arg18)) :=
  (((h c).2 main_v12 (Pipeline.mem_restRefs_of main_v12 (by decide) (by decide))).trans (tail_eq m c)).trans
    (congrArg (fun hh => project hh (m ((c.tc : Thread nD τ).loc main_arg17)) (m ((c.tc : Thread nD τ).loc main_arg18)))
      ((final_h m c).trans (congrArg Args.hOut (argsV_eq m c))))

theorem kept_main_arg0 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

theorem kept_main_arg1 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

theorem kept_main_arg2 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))

theorem kept_main_arg3 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))

theorem kept_main_arg4 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))

theorem kept_main_arg5 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)

theorem kept_main_arg6 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).2 main_arg6 (Pipeline.mem_restRefs_of main_arg6 (by decide) (by decide))).trans (W_main_arg6 m (dats m) c)

theorem kept_main_arg7 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).2 main_arg7 (Pipeline.mem_restRefs_of main_arg7 (by decide) (by decide))).trans (W_main_arg7 m (dats m) c)

theorem kept_main_arg8 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).2 main_arg8 (Pipeline.mem_restRefs_of main_arg8 (by decide) (by decide))).trans (W_main_arg8 m (dats m) c)

theorem kept_main_arg9 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).2 main_arg9 (Pipeline.mem_restRefs_of main_arg9 (by decide) (by decide))).trans (W_main_arg9 m (dats m) c)

theorem kept_main_arg10 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).2 main_arg10 (Pipeline.mem_restRefs_of main_arg10 (by decide) (by decide))).trans (W_main_arg10 m (dats m) c)

theorem kept_main_arg11 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).2 main_arg11 (Pipeline.mem_restRefs_of main_arg11 (by decide) (by decide))).trans (W_main_arg11 m (dats m) c)

theorem kept_main_arg12 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).2 main_arg12 (Pipeline.mem_restRefs_of main_arg12 (by decide) (by decide))).trans (W_main_arg12 m (dats m) c)

theorem kept_main_arg13 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).1 13).trans (((dats m 0 c).arrAt_in 13 rfl _).trans ((A_eq m c 13).trans (V_main_arg13 m c)))

theorem kept_main_arg14 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).1 14).trans (((dats m 0 c).arrAt_in 14 rfl _).trans ((A_eq m c 14).trans (V_main_arg14 m c)))

theorem kept_main_arg15 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).1 15).trans (((dats m 0 c).arrAt_in 15 rfl _).trans ((A_eq m c 15).trans (V_main_arg15 m c)))

theorem kept_main_arg16 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).1 16).trans (((dats m 0 c).arrAt_in 16 rfl _).trans ((A_eq m c 16).trans (V_main_arg16 m c)))

theorem kept_main_arg17 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).2 main_arg17 (Pipeline.mem_restRefs_of main_arg17 (by decide) (by decide))).trans (W_main_arg17 m (dats m) c)

theorem kept_main_arg18 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg18) = m ((c.tc : Thread nD τ).loc main_arg18) :=
  ((h c).2 main_arg18 (Pipeline.mem_restRefs_of main_arg18 (by decide) (by decide))).trans (W_main_arg18 m (dats m) c)

/-! ## The run -/

theorem run : θ_run defs (onTc (τ := τ) (main (F := Ideal))) ⟨m, fun _ => 0, ρ⟩ fun r => ∀ c : Dev nD,
      r.2.mem ((c.tc : Thread nD τ).loc main_v12)
        = project (argsM m c).hOut (m ((c.tc : Thread nD τ).loc main_arg17)) (m ((c.tc : Thread nD τ).loc main_arg18))
      ∧ r.2.mem ((c.tc : Thread nD τ).loc main_v8_0) = (argsM m c).hOut
      ∧ r.2.mem ((c.tc : Thread nD τ).loc main_v8_1) = (argsM m c).cOut
      ∧ r.2.mem ((c.tc : Thread nD τ).loc main_v8_2) = (argsM m c).nOut
      ∧ r.2.mem ((c.tc : Thread nD τ).loc main_v8_3) = (argsM m c).mOut
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨res_out m r h c, res_h m r h c, res_c m r h c, res_n m r h c, res_m m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c⟩) (run_main m ρ)

end Cert.KernelIdeal.Arrays

end
-- ==== Proof.RefGates.lean ====
/-
  The reference, read at an index.  It joins the four gates' weights side by side (2048 + 2048 + 2048 + 2048 columns),
  multiplies once, adds the joined bias, and cuts the result back into four blocks of 2048 columns.  Column `2048·g + j`
  of a joined matrix is column `j` of its `g`-th piece, so block `g` of the joined pre-activation at `(a, j)` is gate `g`'s
  `gate` (Cell.lean) there.  The reference writes the logistic function as the quotient `1 / (1 + e^{-x})`, which on the
  extended reals IS the logistic function, and takes the logarithm of that quotient for the forget gate: exactly
  `logSigmoid`.  Every later operation is pointwise and is the cell's, in the cell's order.
-/
import proofs.«103875_j21062519619836_2_alg».proof.Proof.Gen.ReferenceIdeal.Read
import proofs.«103875_j21062519619836_2_alg».proof.Proof.Cell
import Idealize.ShloMosaic.Lib.IdealHost

noncomputable section

namespace Cert.ReferenceIdeal.RefCell

open Cert.ReferenceIdeal Cert.ReferenceIdeal.Gen Cert.ReferenceIdeal.Read Idealize.ShloMosaic Idealize.ShloMosaic.ValueIdx Cert.SLstm

/-! ## A joined array at an index: the piece whose span of columns holds it -/

theorem wcat0 (y0 y1 y2 y3 : (⟨S2048x2048, .f32⟩ : BufTy).Contents (Elt Ideal)) (k j : Fin 2048) (J : S2048x8192.Idx)
    (h0 : (J 0).val = k.val) (h1 : (J 1).val = 0 + j.val) :
    val_main_v0 (F := Ideal) y0 y1 y2 y3 J = y0 (ix2 k j) := by
  unfold val_main_v0
  refine concatenate_apply_piece (1 : Fin S2048x8192.rank) _ _ J 0 (by show (0 : Nat) < 4; decide) S2048x2048 y0 rfl rfl 0 (by rfl) (ix2 k j) ?_ ?_
  · intro b hb
    match b with
    | ⟨0, _⟩ => exact h0.symm
    | ⟨1, _⟩ => exact absurd rfl hb
  · exact h1.symm

theorem wcat1 (y0 y1 y2 y3 : (⟨S2048x2048, .f32⟩ : BufTy).Contents (Elt Ideal)) (k j : Fin 2048) (J : S2048x8192.Idx)
    (h0 : (J 0).val = k.val) (h1 : (J 1).val = 2048 + j.val) :
    val_main_v0 (F := Ideal) y0 y1 y2 y3 J = y1 (ix2 k j) := by
  unfold val_main_v0
  refine concatenate_apply_piece (1 : Fin S2048x8192.rank) _ _ J 1 (by show (1 : Nat) < 4; decide) S2048x2048 y1 rfl rfl 2048 (by rfl) (ix2 k j) ?_ ?_
  · intro b hb
    match b with
    | ⟨0, _⟩ => exact h0.symm
    | ⟨1, _⟩ => exact absurd rfl hb
  · exact h1.symm

theorem wcat2 (y0 y1 y2 y3 : (⟨S2048x2048, .f32⟩ : BufTy).Contents (Elt Ideal)) (k j : Fin 2048) (J : S2048x8192.Idx)
    (h0 : (J 0).val = k.val) (h1 : (J 1).val = 4096 + j.val) :
    val_main_v0 (F := Ideal) y0 y1 y2 y3 J = y2 (ix2 k j) := by
  unfold val_main_v0
  refine concatenate_apply_piece (1 : Fin S2048x8192.rank) _ _ J 2 (by show (2 : Nat) < 4; decide) S2048x2048 y2 rfl rfl 4096 (by rfl) (ix2 k j) ?_ ?_
  · intro b hb
    match b with
    | ⟨0, _⟩ => exact h0.symm
    | ⟨1, _⟩ => exact absurd rfl hb
  · exact h1.symm

theorem wcat3 (y0 y1 y2 y3 : (⟨S2048x2048, .f32⟩ : BufTy).Contents (Elt Ideal)) (k j : Fin 2048) (J : S2048x8192.Idx)
    (h0 : (J 0).val = k.val) (h1 : (J 1).val = 6144 + j.val) :
    val_main_v0 (F := Ideal) y0 y1 y2 y3 J = y3 (ix2 k j) := by
  unfold val_main_v0
  refine concatenate_apply_piece (1 : Fin S2048x8192.rank) _ _ J 3 (by show (3 : Nat) < 4; decide) S2048x2048 y3 rfl rfl 6144 (by rfl) (ix2 k j) ?_ ?_
  · intro b hb
    match b with
    | ⟨0, _⟩ => exact h0.symm
    | ⟨1, _⟩ => exact absurd rfl hb
  · exact h1.symm

theorem rcat0 (y0 y1 y2 y3 : (⟨S2048x2048, .f32⟩ : BufTy).Contents (Elt Ideal)) (k j : Fin 2048) (J : S2048x8192.Idx)
    (h0 : (J 0).val = k.val) (h1 : (J 1).val = 0 + j.val) :
    val_main_v1 (F := Ideal) y0 y1 y2 y3 J = y0 (ix2 k j) := by
  unfold val_main_v1
  refine concatenate_apply_piece (1 : Fin S2048x8192.rank) _ _ J 0 (by show (0 : Nat) < 4; decide) S2048x2048 y0 rfl rfl 0 (by rfl) (ix2 k j) ?_ ?_
  · intro b hb
    match b with
    | ⟨0, _⟩ => exact h0.symm
    | ⟨1, _⟩ => exact absurd rfl hb
  · exact h1.symm

theorem rcat1 (y0 y1 y2 y3 : (⟨S2048x2048, .f32⟩ : BufTy).Contents (Elt Ideal)) (k j : Fin 2048) (J : S2048x8192.Idx)
    (h0 : (J 0).val = k.val) (h1 : (J 1).val = 2048 + j.val) :
    val_main_v1 (F := Ideal) y0 y1 y2 y3 J = y1 (ix2 k j) := by
  unfold val_main_v1
  refine concatenate_apply_piece (1 : Fin S2048x8192.rank) _ _ J 1 (by show (1 : Nat) < 4; decide) S2048x2048 y1 rfl rfl 2048 (by rfl) (ix2 k j) ?_ ?_
  · intro b hb
    match b with
    | ⟨0, _⟩ => exact h0.symm
    | ⟨1, _⟩ => exact absurd rfl hb
  · exact h1.symm

theorem rcat2 (y0 y1 y2 y3 : (⟨S2048x2048, .f32⟩ : BufTy).Contents (Elt Ideal)) (k j : Fin 2048) (J : S2048x8192.Idx)
    (h0 : (J 0).val = k.val) (h1 : (J 1).val = 4096 + j.val) :
    val_main_v1 (F := Ideal) y0 y1 y2 y3 J = y2 (ix2 k j) := by
  unfold val_main_v1
  refine concatenate_apply_piece (1 : Fin S2048x8192.rank) _ _ J 2 (by show (2 : Nat) < 4; decide) S2048x2048 y2 rfl rfl 4096 (by rfl) (ix2 k j) ?_ ?_
  · intro b hb
    match b with
    | ⟨0, _⟩ => exact h0.symm
    | ⟨1, _⟩ => exact absurd rfl hb
  · exact h1.symm

theorem rcat3 (y0 y1 y2 y3 : (⟨S2048x2048, .f32⟩ : BufTy).Contents (Elt Ideal)) (k j : Fin 2048) (J : S2048x8192.Idx)
    (h0 : (J 0).val = k.val) (h1 : (J 1).val = 6144 + j.val) :
    val_main_v1 (F := Ideal) y0 y1 y2 y3 J = y3 (ix2 k j) := by
  unfold val_main_v1
  refine concatenate_apply_piece (1 : Fin S2048x8192.rank) _ _ J 3 (by show (3 : Nat) < 4; decide) S2048x2048 y3 rfl rfl 6144 (by rfl) (ix2 k j) ?_ ?_
  · intro b hb
    match b with
    | ⟨0, _⟩ => exact h0.symm
    | ⟨1, _⟩ => exact absurd rfl hb
  · exact h1.symm

theorem bcat0 (y0 y1 y2 y3 : (⟨S2048, .f32⟩ : BufTy).Contents (Elt Ideal)) (j : Fin 2048) (J : S8192.Idx) (h1 : (J 0).val = 0 + j.val) :
    val_main_v2 (F := Ideal) y0 y1 y2 y3 J = y0 (ix1 j) := by
  unfold val_main_v2
  refine concatenate_apply_piece (0 : Fin S8192.rank) _ _ J 0 (by show (0 : Nat) < 4; decide) S2048 y0 rfl rfl 0 (by rfl) (ix1 j) ?_ ?_
  · intro b hb
    match b with
    | ⟨0, _⟩ => exact absurd rfl hb
  · exact h1.symm

theorem bcat1 (y0 y1 y2 y3 : (⟨S2048, .f32⟩ : BufTy).Contents (Elt Ideal)) (j : Fin 2048) (J : S8192.Idx) (h1 : (J 0).val = 2048 + j.val) :
    val_main_v2 (F := Ideal) y0 y1 y2 y3 J = y1 (ix1 j) := by
  unfold val_main_v2
  refine concatenate_apply_piece (0 : Fin S8192.rank) _ _ J 1 (by show (1 : Nat) < 4; decide) S2048 y1 rfl rfl 2048 (by rfl) (ix1 j) ?_ ?_
  · intro b hb
    match b with
    | ⟨0, _⟩ => exact absurd rfl hb
  · exact h1.symm

theorem bcat2 (y0 y1 y2 y3 : (⟨S2048, .f32⟩ : BufTy).Contents (Elt Ideal)) (j : Fin 2048) (J : S8192.Idx) (h1 : (J 0).val = 4096 + j.val) :
    val_main_v2 (F := Ideal) y0 y1 y2 y3 J = y2 (ix1 j) := by
  unfold val_main_v2
  refine concatenate_apply_piece (0 : Fin S8192.rank) _ _ J 2 (by show (2 : Nat) < 4; decide) S2048 y2 rfl rfl 4096 (by rfl) (ix1 j) ?_ ?_
  · intro b hb
    match b with
    | ⟨0, _⟩ => exact absurd rfl hb
  · exact h1.symm

theorem bcat3 (y0 y1 y2 y3 : (⟨S2048, .f32⟩ : BufTy).Contents (Elt Ideal)) (j : Fin 2048) (J : S8192.Idx) (h1 : (J 0).val = 6144 + j.val) :
    val_main_v2 (F := Ideal) y0 y1 y2 y3 J = y3 (ix1 j) := by
  unfold val_main_v2
  refine concatenate_apply_piece (0 : Fin S8192.rank) _ _ J 3 (by show (3 : Nat) < 4; decide) S2048 y3 rfl rfl 6144 (by rfl) (ix1 j) ?_ ?_
  · intro b hb
    match b with
    | ⟨0, _⟩ => exact absurd rfl hb
  · exact h1.symm

/-! ## The four gates' pre-activations -/

/-- Columns 0–2047 of the joined pre-activation are gate i's. -/
theorem pre_i (x0 x1 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (a : Fin 8192) (j : Fin 2048) (J : S8192x8192.Idx)
    (h0 : (J 0).val = a.val) (h1 : (J 1).val = 0 + j.val) :
    val_main_v8 (F := Ideal) x0 x1 x5 x6 x7 x8 x9 x10 x11 x12 x13 x14 x15 x16 J = gate x0 x1 x5 x9 x13 a j := by
  rw [val_main_v8_apply, val_main_v5_apply, val_main_v3_apply, val_main_v4_apply, val_main_v7_apply, val_main_v6_apply]
  have e3 : ∀ k : Fin 2048, lidx_main_v3 J k = ix2 a k := fun k => funext fun d => Fin.ext (by
    match d with
    | ⟨0, _⟩ => exact h0
    | ⟨1, _⟩ => rfl)
  have e4 : ∀ k : Fin 2048, lidx_main_v4 J k = ix2 a k := fun k => funext fun d => Fin.ext (by
    match d with
    | ⟨0, _⟩ => exact h0
    | ⟨1, _⟩ => rfl)
  have ew : ∀ k : Fin 2048, val_main_v0 (F := Ideal) x5 x6 x7 x8 (ridx_main_v3 J k) = x5 (ix2 k j) :=
    fun k => wcat0 x5 x6 x7 x8 k j _ rfl h1
  have er : ∀ k : Fin 2048, val_main_v1 (F := Ideal) x9 x10 x11 x12 (ridx_main_v4 J k) = x9 (ix2 k j) :=
    fun k => rcat0 x9 x10 x11 x12 k j _ rfl h1
  have eb : val_main_v2 (F := Ideal) x13 x14 x15 x16 (idx_main_v6 (idx_main_v7 J)) = x13 (ix1 j) :=
    bcat0 x13 x14 x15 x16 j _ h1
  simp only [e3, e4, ew, er, eb]
  rfl

/-- Columns 2048–4095 of the joined pre-activation are gate f's. -/
theorem pre_f (x0 x1 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (a : Fin 8192) (j : Fin 2048) (J : S8192x8192.Idx)
    (h0 : (J 0).val = a.val) (h1 : (J 1).val = 2048 + j.val) :
    val_main_v8 (F := Ideal) x0 x1 x5 x6 x7 x8 x9 x10 x11 x12 x13 x14 x15 x16 J = gate x0 x1 x6 x10 x14 a j := by
  rw [val_main_v8_apply, val_main_v5_apply, val_main_v3_apply, val_main_v4_apply, val_main_v7_apply, val_main_v6_apply]
  have e3 : ∀ k : Fin 2048, lidx_main_v3 J k = ix2 a k := fun k => funext fun d => Fin.ext (by
    match d with
    | ⟨0, _⟩ => exact h0
    | ⟨1, _⟩ => rfl)
  have e4 : ∀ k : Fin 2048, lidx_main_v4 J k = ix2 a k := fun k => funext fun d => Fin.ext (by
    match d with
    | ⟨0, _⟩ => exact h0
    | ⟨1, _⟩ => rfl)
  have ew : ∀ k : Fin 2048, val_main_v0 (F := Ideal) x5 x6 x7 x8 (ridx_main_v3 J k) = x6 (ix2 k j) :=
    fun k => wcat1 x5 x6 x7 x8 k j _ rfl h1
  have er : ∀ k : Fin 2048, val_main_v1 (F := Ideal) x9 x10 x11 x12 (ridx_main_v4 J k) = x10 (ix2 k j) :=
    fun k => rcat1 x9 x10 x11 x12 k j _ rfl h1
  have eb : val_main_v2 (F := Ideal) x13 x14 x15 x16 (idx_main_v6 (idx_main_v7 J)) = x14 (ix1 j) :=
    bcat1 x13 x14 x15 x16 j _ h1
  simp only [e3, e4, ew, er, eb]
  rfl

/-- Columns 4096–6143 of the joined pre-activation are gate o's. -/
theorem pre_o (x0 x1 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (a : Fin 8192) (j : Fin 2048) (J : S8192x8192.Idx)
    (h0 : (J 0).val = a.val) (h1 : (J 1).val = 4096 + j.val) :
    val_main_v8 (F := Ideal) x0 x1 x5 x6 x7 x8 x9 x10 x11 x12 x13 x14 x15 x16 J = gate x0 x1 x7 x11 x15 a j := by
  rw [val_main_v8_apply, val_main_v5_apply, val_main_v3_apply, val_main_v4_apply, val_main_v7_apply, val_main_v6_apply]
  have e3 : ∀ k : Fin 2048, lidx_main_v3 J k = ix2 a k := fun k => funext fun d => Fin.ext (by
    match d with
    | ⟨0, _⟩ => exact h0
    | ⟨1, _⟩ => rfl)
  have e4 : ∀ k : Fin 2048, lidx_main_v4 J k = ix2 a k := fun k => funext fun d => Fin.ext (by
    match d with
    | ⟨0, _⟩ => exact h0
    | ⟨1, _⟩ => rfl)
  have ew : ∀ k : Fin 2048, val_main_v0 (F := Ideal) x5 x6 x7 x8 (ridx_main_v3 J k) = x7 (ix2 k j) :=
    fun k => wcat2 x5 x6 x7 x8 k j _ rfl h1
  have er : ∀ k : Fin 2048, val_main_v1 (F := Ideal) x9 x10 x11 x12 (ridx_main_v4 J k) = x11 (ix2 k j) :=
    fun k => rcat2 x9 x10 x11 x12 k j _ rfl h1
  have eb : val_main_v2 (F := Ideal) x13 x14 x15 x16 (idx_main_v6 (idx_main_v7 J)) = x15 (ix1 j) :=
    bcat2 x13 x14 x15 x16 j _ h1
  simp only [e3, e4, ew, er, eb]
  rfl

/-- Columns 6144–8191 of the joined pre-activation are gate z's. -/
theorem pre_z (x0 x1 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (a : Fin 8192) (j : Fin 2048) (J : S8192x8192.Idx)
    (h0 : (J 0).val = a.val) (h1 : (J 1).val = 6144 + j.val) :
    val_main_v8 (F := Ideal) x0 x1 x5 x6 x7 x8 x9 x10 x11 x12 x13 x14 x15 x16 J = gate x0 x1 x8 x12 x16 a j := by
  rw [val_main_v8_apply, val_main_v5_apply, val_main_v3_apply, val_main_v4_apply, val_main_v7_apply, val_main_v6_apply]
  have e3 : ∀ k : Fin 2048, lidx_main_v3 J k = ix2 a k := fun k => funext fun d => Fin.ext (by
    match d with
    | ⟨0, _⟩ => exact h0
    | ⟨1, _⟩ => rfl)
  have e4 : ∀ k : Fin 2048, lidx_main_v4 J k = ix2 a k := fun k => funext fun d => Fin.ext (by
    match d with
    | ⟨0, _⟩ => exact h0
    | ⟨1, _⟩ => rfl)
  have ew : ∀ k : Fin 2048, val_main_v0 (F := Ideal) x5 x6 x7 x8 (ridx_main_v3 J k) = x8 (ix2 k j) :=
    fun k => wcat3 x5 x6 x7 x8 k j _ rfl h1
  have er : ∀ k : Fin 2048, val_main_v1 (F := Ideal) x9 x10 x11 x12 (ridx_main_v4 J k) = x12 (ix2 k j) :=
    fun k => rcat3 x9 x10 x11 x12 k j _ rfl h1
  have eb : val_main_v2 (F := Ideal) x13 x14 x15 x16 (idx_main_v6 (idx_main_v7 J)) = x16 (ix1 j) :=
    bcat3 x13 x14 x15 x16 j _ h1
  simp only [e3, e4, ew, er, eb]
  rfl

end Cert.ReferenceIdeal.RefCell

end
-- ==== Proof.RefCell.lean ====
/-
  The reference's four results as the specification's arrays.  Each gate's block of the joined pre-activation is the
  gate's `gate` (RefGates.lean); after that the reference applies, element by element and in this order, the logistic
  quotient, `tanh`, the logarithm of the forget gate's quotient, `max`, the two exponentials, and the products, sums
  and the quotient of the cell — which is how Cell.lean's functions are written.  So each result array is the
  specification's array of the same arguments, and the scalar result is `project` of the hidden state.
-/
import proofs.«103875_j21062519619836_2_alg».proof.Proof.RefGates
import proofs.«103875_j21062519619836_2_alg».proof.Proof.Tail

noncomputable section

namespace Cert.ReferenceIdeal.RefCell

open Cert.ReferenceIdeal Cert.ReferenceIdeal.Gen Cert.ReferenceIdeal.Read Idealize.ShloMosaic Idealize.ShloMosaic.ValueIdx Cert.SLstm

/-! ## Each gate through its slice -/

theorem slice_i (x0 x1 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (a : Fin 8192) (j : Fin 2048) :
    val_main_v9 (F := Ideal) x0 x1 x5 x6 x7 x8 x9 x10 x11 x12 x13 x14 x15 x16 (ix2 a j) = gate x0 x1 x5 x9 x13 a j := by
  rw [val_main_v9_apply]
  exact pre_i x0 x1 x5 x6 x7 x8 x9 x10 x11 x12 x13 x14 x15 x16 a j _ rfl (Nat.zero_add _).symm

theorem slice_f (x0 x1 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (a : Fin 8192) (j : Fin 2048) :
    val_main_v10 (F := Ideal) x0 x1 x5 x6 x7 x8 x9 x10 x11 x12 x13 x14 x15 x16 (ix2 a j) = gate x0 x1 x6 x10 x14 a j := by
  rw [val_main_v10_apply]
  exact pre_f x0 x1 x5 x6 x7 x8 x9 x10 x11 x12 x13 x14 x15 x16 a j _ rfl rfl

theorem slice_o (x0 x1 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (a : Fin 8192) (j : Fin 2048) :
    val_main_v11 (F := Ideal) x0 x1 x5 x6 x7 x8 x9 x10 x11 x12 x13 x14 x15 x16 (ix2 a j) = gate x0 x1 x7 x11 x15 a j := by
  rw [val_main_v11_apply]
  exact pre_o x0 x1 x5 x6 x7 x8 x9 x10 x11 x12 x13 x14 x15 x16 a j _ rfl rfl

theorem slice_z (x0 x1 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (a : Fin 8192) (j : Fin 2048) :
    val_main_v12 (F := Ideal) x0 x1 x5 x6 x7 x8 x9 x10 x11 x12 x13 x14 x15 x16 (ix2 a j) = gate x0 x1 x8 x12 x16 a j := by
  rw [val_main_v12_apply]
  exact pre_z x0 x1 x5 x6 x7 x8 x9 x10 x11 x12 x13 x14 x15 x16 a j _ rfl rfl

/-! ## The four arrays -/

theorem hidden_eq (x0 x1 x2 x3 x4 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) :
    val_main_v40 (F := Ideal) x0 x1 x2 x3 x4 x5 x6 x7 x8 x9 x10 x11 x12 x13 x14 x15 x16 = (Args.mk x0 x1 x2 x3 x4 x5 x6 x7 x8 x9 x10 x11 x12 x13 x14 x15 x16).hOut := by
  funext i
  obtain ⟨a, j, rfl⟩ : ∃ (a : Fin 8192) (j : Fin 2048), i = ix2 a j := ⟨i 0, i 1, eq_ix2 i⟩
  have hi := slice_i x0 x1 x5 x6 x7 x8 x9 x10 x11 x12 x13 x14 x15 x16 a j
  have hf := slice_f x0 x1 x5 x6 x7 x8 x9 x10 x11 x12 x13 x14 x15 x16 a j
  have ho := slice_o x0 x1 x5 x6 x7 x8 x9 x10 x11 x12 x13 x14 x15 x16 a j
  have hz := slice_z x0 x1 x5 x6 x7 x8 x9 x10 x11 x12 x13 x14 x15 x16 a j
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_cst_2_apply, val_main_v22_apply, val_main_v21_apply, val_main_cst_1_apply, val_main_v20_apply, val_main_v19_apply, val_main_v18_apply, val_main_v17_apply, val_main_cst_0_apply, val_main_v16_apply, val_main_v15_apply, val_main_cst_apply, val_main_v14_apply, val_main_v13_apply, hi, hf, ho, hz, Ideal.ofBits_def, Ideal.ofBits_one_f32]
  rfl

theorem cell_eq (x0 x1 x2 x3 x4 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) :
    val_main_v36 (F := Ideal) x0 x1 x2 x4 x5 x6 x7 x8 x9 x10 x11 x12 x13 x14 x15 x16 = (Args.mk x0 x1 x2 x3 x4 x5 x6 x7 x8 x9 x10 x11 x12 x13 x14 x15 x16).cOut := by
  funext i
  obtain ⟨a, j, rfl⟩ : ∃ (a : Fin 8192) (j : Fin 2048), i = ix2 a j := ⟨i 0, i 1, eq_ix2 i⟩
  have hi := slice_i x0 x1 x5 x6 x7 x8 x9 x10 x11 x12 x13 x14 x15 x16 a j
  have hf := slice_f x0 x1 x5 x6 x7 x8 x9 x10 x11 x12 x13 x14 x15 x16 a j
  have ho := slice_o x0 x1 x5 x6 x7 x8 x9 x10 x11 x12 x13 x14 x15 x16 a j
  have hz := slice_z x0 x1 x5 x6 x7 x8 x9 x10 x11 x12 x13 x14 x15 x16 a j
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_cst_2_apply, val_main_v22_apply, val_main_v21_apply, val_main_cst_1_apply, val_main_v20_apply, val_main_v19_apply, val_main_v18_apply, val_main_v17_apply, val_main_cst_0_apply, val_main_v16_apply, val_main_v15_apply, val_main_cst_apply, val_main_v14_apply, val_main_v13_apply, hi, hf, ho, hz, Ideal.ofBits_def, Ideal.ofBits_one_f32]
  rfl

theorem normalizer_eq (x0 x1 x2 x3 x4 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) :
    val_main_v38 (F := Ideal) x0 x1 x3 x4 x5 x6 x7 x8 x9 x10 x11 x12 x13 x14 x15 x16 = (Args.mk x0 x1 x2 x3 x4 x5 x6 x7 x8 x9 x10 x11 x12 x13 x14 x15 x16).nOut := by
  funext i
  obtain ⟨a, j, rfl⟩ : ∃ (a : Fin 8192) (j : Fin 2048), i = ix2 a j := ⟨i 0, i 1, eq_ix2 i⟩
  have hi := slice_i x0 x1 x5 x6 x7 x8 x9 x10 x11 x12 x13 x14 x15 x16 a j
  have hf := slice_f x0 x1 x5 x6 x7 x8 x9 x10 x11 x12 x13 x14 x15 x16 a j
  have ho := slice_o x0 x1 x5 x6 x7 x8 x9 x10 x11 x12 x13 x14 x15 x16 a j
  have hz := slice_z x0 x1 x5 x6 x7 x8 x9 x10 x11 x12 x13 x14 x15 x16 a j
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_cst_2_apply, val_main_v22_apply, val_main_v21_apply, val_main_cst_1_apply, val_main_v20_apply, val_main_v19_apply, val_main_v18_apply, val_main_v17_apply, val_main_cst_0_apply, val_main_v16_apply, val_main_v15_apply, val_main_cst_apply, val_main_v14_apply, val_main_v13_apply, hi, hf, ho, hz, Ideal.ofBits_def, Ideal.ofBits_one_f32]
  rfl

theorem stabilizer_eq (x0 x1 x2 x3 x4 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) :
    val_main_v28 (F := Ideal) x0 x1 x4 x5 x6 x7 x8 x9 x10 x11 x12 x13 x14 x15 x16 = (Args.mk x0 x1 x2 x3 x4 x5 x6 x7 x8 x9 x10 x11 x12 x13 x14 x15 x16).mOut := by
  funext i
  obtain ⟨a, j, rfl⟩ : ∃ (a : Fin 8192) (j : Fin 2048), i = ix2 a j := ⟨i 0, i 1, eq_ix2 i⟩
  have hi := slice_i x0 x1 x5 x6 x7 x8 x9 x10 x11 x12 x13 x14 x15 x16 a j
  have hf := slice_f x0 x1 x5 x6 x7 x8 x9 x10 x11 x12 x13 x14 x15 x16 a j
  have ho := slice_o x0 x1 x5 x6 x7 x8 x9 x10 x11 x12 x13 x14 x15 x16 a j
  have hz := slice_z x0 x1 x5 x6 x7 x8 x9 x10 x11 x12 x13 x14 x15 x16 a j
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_cst_2_apply, val_main_v22_apply, val_main_v21_apply, val_main_cst_1_apply, val_main_v20_apply, val_main_v19_apply, val_main_v18_apply, val_main_v17_apply, val_main_cst_0_apply, val_main_v16_apply, val_main_v15_apply, val_main_cst_apply, val_main_v14_apply, val_main_v13_apply, hi, hf, ho, hz, Ideal.ofBits_def, Ideal.ofBits_one_f32]
  rfl

/-- The scalar result is the projection of the hidden state. -/
theorem out_eq (x0 x1 x2 x3 x4 : (⟨S8192x2048, .f32⟩ : BufTy).Contents (Elt Ideal)) (x5 x6 x7 x8 x9 x10 x11 x12 : (⟨S2048x2048, .f32⟩ : BufTy).Contents (Elt Ideal)) (x13 x14 x15 x16 : (⟨S2048, .f32⟩ : BufTy).Contents (Elt Ideal)) (x17 : (⟨S2048x1, .f32⟩ : BufTy).Contents (Elt Ideal)) (x18 : (⟨S1, .f32⟩ : BufTy).Contents (Elt Ideal)) :
    val_main_v44 (F := Ideal) x0 x1 x2 x3 x4 x5 x6 x7 x8 x9 x10 x11 x12 x13 x14 x15 x16 x17 x18
      = project (val_main_v40 (F := Ideal) x0 x1 x2 x3 x4 x5 x6 x7 x8 x9 x10 x11 x12 x13 x14 x15 x16) x17 x18 := rfl

end Cert.ReferenceIdeal.RefCell

end
-- ==== Proof.RefRun.lean ====
/-
  The reference's run, read: every weakly fair execution of the reference terminates with its five results at the
  specification's arrays (Cell.lean) of the arguments as launched — the hidden state, the cell state, the normalizer and
  the stabilizer, and the scalar result at `project` of the hidden state — and the arguments unchanged.
-/
import proofs.«103875_j21062519619836_2_alg».proof.Proof.RefCell

noncomputable section

namespace Cert.ReferenceIdeal.RefCell

open Cert.ReferenceIdeal Cert.ReferenceIdeal.Gen Cert.ReferenceIdeal.Read Idealize.ShloMosaic Idealize.ShloMosaic.TcCoe Idealize.SL.Sem Cert.SLstm

variable (m : (ℓ : Loc nD τ sig) → Buf (Elt Ideal) ℓ) (ρ : Dev nD → PrngReg)

/-- The seventeen arrays the cell reads, as launched. -/
def argsM (c : Dev nD) : Args where
  x := m ((c.tc : Thread nD τ).loc main_arg0)
  h := m ((c.tc : Thread nD τ).loc main_arg1)
  c := m ((c.tc : Thread nD τ).loc main_arg2)
  n := m ((c.tc : Thread nD τ).loc main_arg3)
  m := m ((c.tc : Thread nD τ).loc main_arg4)
  wi := m ((c.tc : Thread nD τ).loc main_arg5)
  wf := m ((c.tc : Thread nD τ).loc main_arg6)
  wo := m ((c.tc : Thread nD τ).loc main_arg7)
  wz := m ((c.tc : Thread nD τ).loc main_arg8)
  ri := m ((c.tc : Thread nD τ).loc main_arg9)
  rf := m ((c.tc : Thread nD τ).loc main_arg10)
  ro := m ((c.tc : Thread nD τ).loc main_arg11)
  rz := m ((c.tc : Thread nD τ).loc main_arg12)
  bi := m ((c.tc : Thread nD τ).loc main_arg13)
  bf := m ((c.tc : Thread nD τ).loc main_arg14)
  bo := m ((c.tc : Thread nD τ).loc main_arg15)
  bz := m ((c.tc : Thread nD τ).loc main_arg16)

theorem run : θ_run defs (onTc (τ := τ) (main (F := Ideal))) ⟨m, fun _ => 0, ρ⟩ fun r => ∀ c : Dev nD,
      r.2.mem ((c.tc : Thread nD τ).loc main_v44)
        = project (argsM m c).hOut (m ((c.tc : Thread nD τ).loc main_arg17)) (m ((c.tc : Thread nD τ).loc main_arg18))
      ∧ r.2.mem ((c.tc : Thread nD τ).loc main_v40) = (argsM m c).hOut
      ∧ r.2.mem ((c.tc : Thread nD τ).loc main_v36) = (argsM m c).cOut
      ∧ r.2.mem ((c.tc : Thread nD τ).loc main_v38) = (argsM m c).nOut
      ∧ r.2.mem ((c.tc : Thread nD τ).loc main_v28) = (argsM m c).mOut
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨
      ((h c).1.trans (val_main_v44_eq m c)).trans ((out_eq _ _ _ _ _ _ _ _ _ _ _ _ _ _ _ _ _ _ _).trans
        (congrArg (fun hh => project hh (m ((c.tc : Thread nD τ).loc main_arg17)) (m ((c.tc : Thread nD τ).loc main_arg18))) (hidden_eq _ _ _ _ _ _ _ _ _ _ _ _ _ _ _ _ _))),
      ((h c).2.1.trans (val_main_v40_eq m c)).trans (hidden_eq _ _ _ _ _ _ _ _ _ _ _ _ _ _ _ _ _),
      ((h c).2.2.1.trans (val_main_v36_eq m c)).trans (cell_eq _ _ _ _ _ _ _ _ _ _ _ _ _ _ _ _ _),
      ((h c).2.2.2.1.trans (val_main_v38_eq m c)).trans (normalizer_eq _ _ _ _ _ _ _ _ _ _ _ _ _ _ _ _ _),
      ((h c).2.2.2.2.1.trans (val_main_v28_eq _ _ _ _ _ _ _ _ _ _ _ _ _ _ _)).trans (stabilizer_eq _ _ _ _ _ _ _ _ _ _ _ _ _ _ _ _ _),
      (h c).2.2.2.2.2⟩) (Cert.ReferenceIdeal.Value.run (F := Ideal) m ρ)

end Cert.ReferenceIdeal.RefCell

end
-- ==== Proof.lean ====
/-
  One step of an sLSTM cell, computed two ways, is one function of its arguments on the extended reals.

  The kernel tiles the 8192 × 2048 state into 256 × 256 tiles; on each tile it contracts 256 rows of `x` and of `h` with
  256 columns of each gate's two weight matrices, adds the bias, and applies the cell pointwise.  The reference joins
  the four gates' weights side by side, multiplies once, and cuts the product into the four gates.  Column `2048·g + j`
  of the joined product is gate `g`'s column `j`, and row `p`, column `q` of the tile with block row `R`, block column
  `C` is row `R·256 + p`, column `C·256 + q` of the array, so both compute, at every index, the same four sums
  `∑ₖ x[a,k]·w[k,j] + ∑ₖ h[a,k]·r[k,j] + b[j]` (a change of float format is the identity here).
  The one place the two differ in the cell is `log σ(f̃)`: the reference takes the logarithm of the quotient
  `1 / (1 + e^{-f̃})`, the kernel writes `-(max(-f̃, 0) + log(1 + e^{-|f̃|}))`; these are one function on the extended
  reals, infinities included (Proof/LogSigmoid.lean), so no finiteness of the inputs is used.  The scalar result is the
  same projection of the hidden state in both programs.

  Proof/Cell.lean is the specification; Proof/KernelTile.lean, KernelGate.lean, KernelReads.lean, KernelArrays.lean and
  KernelRun.lean read the kernel's run as the specification, Proof/RefGates.lean, RefCell.lean and RefRun.lean the
  reference's; here the two runs, from memories that agree on the arguments, end at equal results.
-/
import proofs.«103875_j21062519619836_2_alg».proof.Defs
import proofs.«103875_j21062519619836_2_alg».proof.Proof.Gen.Kernel
import proofs.«103875_j21062519619836_2_alg».proof.Proof.Gen.Kernel.Skeleton
import proofs.«103875_j21062519619836_2_alg».proof.Proof.Gen.Kernel.Launch
import proofs.«103875_j21062519619836_2_alg».proof.Proof.Gen.Kernel.Points
import proofs.«103875_j21062519619836_2_alg».proof.Proof.Gen.Kernel.Frame
import proofs.«103875_j21062519619836_2_alg».proof.Proof.Gen.KernelIdeal
import proofs.«103875_j21062519619836_2_alg».proof.Proof.Gen.KernelIdeal.Skeleton
import proofs.«103875_j21062519619836_2_alg».proof.Proof.Gen.KernelIdeal.Launch
import proofs.«103875_j21062519619836_2_alg».proof.Proof.Gen.KernelIdeal.Points
import proofs.«103875_j21062519619836_2_alg».proof.Proof.Gen.KernelIdeal.Frame
import proofs.«103875_j21062519619836_2_alg».proof.Proof.Gen.ReferenceIdeal
import proofs.«103875_j21062519619836_2_alg».proof.Proof.Gen.ReferenceIdeal.Run
import proofs.«103875_j21062519619836_2_alg».proof.Proof.Gen.ReferenceIdeal.Read
import proofs.«103875_j21062519619836_2_alg».proof.Proof.Gen.Pre_finite_inputs
import proofs.«103875_j21062519619836_2_alg».proof.Proof.KernelRun
import proofs.«103875_j21062519619836_2_alg».proof.Proof.RefRun
import Idealize.ShloMosaic.Adequacy
import Idealize.ShloMosaic.Init

noncomputable section

namespace Cert.Proof

open Idealize.ShloMosaic Idealize.SL.Sem Cert.SLstm

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the results dropped. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

/-- The idealization rewrote no operation. -/
theorem preserves : Cert.preserves_Kernel_KernelIdeal := trivial

/-- From memories that agree on the arguments both programs end with the specification's five results of those
    arguments: the two runs' posts are stated with one term, and the agreement identifies the arguments. -/
theorem algebraic : Cert.algebraic_KernelIdeal_ReferenceIdeal := by
  intro m ρ m' ρ' _ hagree
  refine ⟨_, _, _, _, _, Cert.KernelIdeal.Arrays.run m ρ, ?_⟩
  refine (θ_run Cert.ReferenceIdeal.defs _ _).mono (fun r h c => ?_) (Cert.ReferenceIdeal.RefCell.run m' ρ')
  obtain ⟨a0, a1, a2, a3, a4, a5, a6, a7, a8, a9, a10, a11, a12, a13, a14, a15, a16, a17, a18⟩ := hagree c
  have e : Cert.ReferenceIdeal.RefCell.argsM m' c = Cert.KernelIdeal.Arrays.argsM m c := by
    unfold Cert.ReferenceIdeal.RefCell.argsM Cert.KernelIdeal.Arrays.argsM
    rw [a0, a1, a2, a3, a4, a5, a6, a7, a8, a9, a10, a11, a12, a13, a14, a15, a16]
  obtain ⟨h0, h1, h2, h3, h4, hk⟩ := h c
  exact ⟨by rw [h0, e, a17, a18], by rw [h1, e], by rw [h2, e], by rw [h3, e], by rw [h4, e], hk⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
